-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S65536x2 : Shape := ⟨2, ![65536, 2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S65536x2 : S_.BroadcastsInDim S65536x2 (![] : Fin 0 → Fin S65536x2.rank)
  reducesTo_S65536x2_S_d0_1 : S65536x2.ReducesTo [0, 1] S_

variable [Facts]

def fn {F : FTy → Type} [FloatOps F] (main_arg0 : FVec F S4096x2 .f32) (main_arg1 : FVec F S4096x2 .f32) (main_arg2 : FVec F S65536x2 .f32) : IVec S_ 1 :=
  let main_v0 : FVec F S4096x2 .f32 := Host.absf main_arg0
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S65536x2 .f32 := Host.absf main_arg2
  let main_cst_2 : FVec F S_ .f32 := constant S_ .f32 0x7F800000#32
  let main_v10 : FVec F S65536x2 .f32 := broadcastInDim S65536x2 ![] bcast_S_S65536x2 main_cst_2
  let main_v11 : IVec S65536x2 1 := cmpf .olt main_v9 main_v10
  let main_c_3 : IVec S_ 1 := constantI S_ 1 1#1
  let main_v12 : IVec S_ 1 := (fun x v => Host.reduce IntOp.andi x v reducesTo_S65536x2_S_d0_1 h_S_) main_v11 main_c_3
  let main_v13 : IVec S_ 1 := andi main_v8 main_v12
  main_v13
-- ==== Kernel.lean ====
abbrev S4096x2 : Shape := ⟨2, ![4096, 2]⟩
abbrev S65536x2 : Shape := ⟨2, ![65536, 2]⟩
abbrev S4096x1 : Shape := ⟨2, ![4096, 1]⟩
abbrev S4096 : Shape := ⟨1, ![4096]⟩
abbrev S_ : Shape := ⟨0, ![]⟩
abbrev S1x4096 : Shape := ⟨2, ![1, 4096]⟩
abbrev S4096x3 : Shape := ⟨2, ![4096, 3]⟩
abbrev S65536x3 : Shape := ⟨2, ![65536, 3]⟩
abbrev S1024x2 : Shape := ⟨2, ![1024, 2]⟩
abbrev S1024x3 : Shape := ⟨2, ![1024, 3]⟩
abbrev S1024x1 : Shape := ⟨2, ![1024, 1]⟩
abbrev S1x1024 : Shape := ⟨2, ![1, 1024]⟩
abbrev S1024x1024 : Shape := ⟨2, ![1024, 1024]⟩
abbrev S256x256x3 : Shape := ⟨3, ![256, 256, 3]⟩
abbrev S3x256x256 : Shape := ⟨3, ![3, 256, 256]⟩
abbrev S1x3x256x256 : Shape := ⟨4, ![1, 3, 256, 256]⟩

abbrev nBuf : Space → Nat
  | .hbm => 30
  | .vmem => 8
  | .smem => 0
  | _ => 0

abbrev bufTy : (tb : Table) → Fin (tcTables nBuf tb) → BufTy
  | .hbm, ⟨0, _⟩ => ⟨S4096x2, .f32⟩
  | .hbm, ⟨1, _⟩ => ⟨S4096x2, .f32⟩
  | .hbm, ⟨2, _⟩ => ⟨S65536x2, .f32⟩
  | .hbm, ⟨3, _⟩ => ⟨S4096x1, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S1x4096, .f32⟩
  | .hbm, ⟨9, _⟩ => ⟨S4096x1, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S4096x2, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S1x4096, .f32⟩
  | .hbm, ⟨22, _⟩ => ⟨S_, .f32⟩
  | .hbm, ⟨23, _⟩ => ⟨S4096x1, .f32⟩
  | .hbm, ⟨24, _⟩ => ⟨S4096x3, .f32⟩
  | .hbm, ⟨25, _⟩ => ⟨S4096x3, .bf16⟩
  | .hbm, ⟨26, _⟩ => ⟨S65536x3, .f32⟩
  | .hbm, ⟨27, _⟩ => ⟨S256x256x3, .f32⟩
  | .hbm, ⟨28, _⟩ => ⟨S3x256x256, .f32⟩
  | .hbm, ⟨29, _⟩ => ⟨S1x3x256x256, .f32⟩
  | .local _ .vmem, ⟨0, _⟩ => ⟨S1024x2, .f32⟩
  | .local _ .vmem, ⟨1, _⟩ => ⟨S1024x2, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S4096x3, .bf16⟩
  | .local _ .vmem, ⟨6, _⟩ => ⟨S1024x3, .f32⟩
  | .local _ .vmem, ⟨7, _⟩ => ⟨S1024x3, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c1024_i32 : BitVec 32 := 1024#32
  let v8 : BitVec 32 := Scalar.muli c0_i32 c1024_i32
  v8
def k0_off1 (c0_i32 : BitVec 32) : Fin 2 → Nat :=
  let c0_3 : Index := 0#32
  let c1024_i32 : BitVec 32 := 1024#32
  let v8 : BitVec 32 := Scalar.muli c0_i32 c1024_i32
  let v9 : BitVec 32 := v8
  let v10 : Index := Scalar.indexCast v9
  ![0, v10.toNat]
def k0_off2 (c0_i32 : BitVec 32) : Fin 2 → Nat :=
  let c1024_i32 : BitVec 32 := 1024#32
  let v8 : BitVec 32 := Scalar.muli c0_i32 c1024_i32
  let v9 : BitVec 32 := v8
  let v32 : Index := Scalar.indexCast v9
  let c0_6 : Index := 0#32
  ![v32.toNat, 0]
def k0_mult2 : BitVec 32 :=
  let c1_i32 : BitVec 32 := 1#32
  let c1024_i32_8 : BitVec 32 := 1024#32
  let v37 : BitVec 32 := Scalar.muli c1_i32 c1024_i32_8
  v37
def k0_mult3 : BitVec 32 :=
  let c2_i32 : BitVec 32 := 2#32
  let c1024_i32_14 : BitVec 32 := 1024#32
  let v66 : BitVec 32 := Scalar.muli c2_i32 c1024_i32_14
  v66
def k0_mult4 : BitVec 32 :=
  let c3_i32 : BitVec 32 := 3#32
  let c1024_i32_20 : BitVec 32 := 1024#32
  let v95 : BitVec 32 := Scalar.muli c3_i32 c1024_i32_20
  v95
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S1x4096_1 : S4096.BroadcastsInDim S1x4096 (![1] : Fin 1 → Fin S1x4096.rank)
  slices_S4096x2_S4096x1_0_1 : S4096x2.Slices ![0, 1] S4096x1
  reducesTo_S4096x2_S4096_d1 : S4096x2.ReducesTo [1] S4096
  h_S_ : 0 < S_.numel
  bcast_S_S4096x1 : S_.BroadcastsInDim S4096x1 (![] : Fin 0 → Fin S4096x1.rank)
  concatenates_S4096x1_S4096x2_S4096x3_d1 : Shape.Concatenates [S4096x1, S4096x2] S4096x3 1
  bitsLt_bf16_f32 : FTy.bits .bf16 < FTy.bits .f32
  inb_S1024x2_S1024x1_0_0 : ∀ a, (![0, 0] : Fin 2 → Nat) a + S1024x1.size a ≤ S1024x2.size a
  h_S1024x1 : 0 < S1024x1.numel
  inb_S1024x2_S1024x1_0_1 : ∀ a, (![0, 1] : Fin 2 → Nat) a + S1024x1.size a ≤ S1024x2.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  h_S1024x3 : 0 < S1024x3.numel
  shapeCasts_S1024x3_S1024x3 : S1024x3.ShapeCasts S1024x3
  slices_S1024x3_o0_0_S1024x1 : S1024x3.Slices ![0, 0] S1024x1
  slices_S1024x3_o0_1_S1024x2 : S1024x3.Slices ![0, 1] S1024x2
  broadcasts_S1024x1_S1024x2 : S1024x1.Broadcasts S1024x2
  inb_S1024x3_S1024x1_0_0 : ∀ a, (![0, 0] : Fin 2 → Nat) a + S1024x1.size a ≤ S1024x3.size a
  inb_S1024x3_S1024x2_0_1 : ∀ a, (![0, 1] : Fin 2 → Nat) a + S1024x2.size a ≤ S1024x3.size a
  h_S1024x2 : 0 < S1024x2.numel
  shapeCasts_S65536x3_S256x256x3 : S65536x3.ShapeCasts S256x256x3
  transposes_S256x256x3_S3x256x256_2_1_0 : S256x256x3.Transposes [2, 1, 0] S3x256x256
  bcast_S3x256x256_S1x3x256x256_1_2_3 : S3x256x256.BroadcastsInDim S1x3x256x256 (![1, 2, 3] : Fin 3 → Fin S1x3x256x256.rank)
  dot_S1024x1024_S1024x3_S1024x3_1_0_0_1_n_n_wf : DotDims.WF S1024x1024 S1024x3 S1024x3 [1] [0] [0] [1] [] []
  hrank0 : 0 < grid0.rank
  k0_mult1_dvd : 1024 ∣ k0_mult1.toNat
  k0_off1_inb : ∀ (r : Fin 4), ∀ a, (k0_off1 (BitVec.ofNat 32 r.val)) a + S1x1024.size a ≤ S1x4096.size a
  k0_off2_inb : ∀ (r : Fin 4), ∀ a, (k0_off2 (BitVec.ofNat 32 r.val)) a + S1024x3.size a ≤ S4096x3.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S65536x2.size a
  hwx0_0 : ∀ i : grid0.Coords, EltTy.bits .f32 = 32 ∨ (Rect.block (s := S65536x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x3.size a ≤ S4096x3.size a
  hwx0_4 : ∀ i : grid0.Coords, EltTy.bits .bf16 = 32 ∨ (Rect.block (s := S4096x3) S4096x3.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x3.size a ≤ S65536x3.size a
  hwx0_5 : ∀ i : grid0.Coords, EltTy.bits .f32 = 32 ∨ (Rect.block (s := S65536x3) S1024x3.size (cc0_transform_5 i) (hinb0_5 i)).WholeWords (EltTy.packing .f32)

variable [Facts₀]

def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf

abbrev win0_0 : Pipeline.Window sig grid0 :=
  Pipeline.Window.ofSpec (Memref.whole main_arg2) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S4096x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1024x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2 : Shape := ⟨2, ![4096, 2]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S4096 : Shape := ⟨1, ![4096]⟩
abbrev S1x4096 : Shape := ⟨2, ![1, 4096]⟩
abbrev S65536x4096 : Shape := ⟨2, ![65536, 4096]⟩
abbrev S2x4096 : Shape := ⟨2, ![2, 4096]⟩
abbrev S4096x1 : Shape := ⟨2, ![4096, 1]⟩
abbrev S4096x3 : Shape := ⟨2, ![4096, 3]⟩
abbrev S65536x3 : Shape := ⟨2, ![65536, 3]⟩
abbrev S256x256x3 : Shape := ⟨3, ![256, 256, 3]⟩
abbrev S3x256x256 : Shape := ⟨3, ![3, 256, 256]⟩
abbrev S1x3x256x256 : Shape := ⟨4, ![1, 3, 256, 256]⟩

abbrev nBuf : Space → Nat
  | .hbm => 39
  | .vmem => 0
  | .smem => 0
  | _ => 0

abbrev bufTy : (tb : Table) → Fin (tcTables nBuf tb) → BufTy
  | .hbm, ⟨0, _⟩ => ⟨S4096x2, .f32⟩
  | .hbm, ⟨1, _⟩ => ⟨S4096x2, .f32⟩
  | .hbm, ⟨2, _⟩ => ⟨S65536x2, .f32⟩
  | .hbm, ⟨3, _⟩ => ⟨S65536x2, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S4096x2, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S65536x4096, .f32⟩
  | .hbm, ⟨12, _⟩ => ⟨S65536x4096, .f32⟩
  | .hbm, ⟨13, _⟩ => ⟨S65536x4096, .f32⟩
  | .hbm, ⟨14, _⟩ => ⟨S_, .f32⟩
  | .hbm, ⟨15, _⟩ => ⟨S65536x2, .f32⟩
  | .hbm, ⟨16, _⟩ => ⟨S65536x2, .f32⟩
  | .hbm, ⟨17, _⟩ => ⟨S2x4096, .f32⟩
  | .hbm, ⟨18, _⟩ => ⟨S65536x4096, .f32⟩
  | .hbm, ⟨19, _⟩ => ⟨S65536x4096, .f32⟩
  | .hbm, ⟨20, _⟩ => ⟨S_, .f32⟩
  | .hbm, ⟨21, _⟩ => ⟨S65536x4096, .f32⟩
  | .hbm, ⟨22, _⟩ => ⟨S65536x4096, .f32⟩
  | .hbm, ⟨23, _⟩ => ⟨S_, .f32⟩
  | .hbm, ⟨24, _⟩ => ⟨S65536x4096, .f32⟩
  | .hbm, ⟨25, _⟩ => ⟨S65536x4096, .f32⟩
  | .hbm, ⟨26, _⟩ => ⟨S65536x4096, .f32⟩
  | .hbm, ⟨27, _⟩ => ⟨S_, .f32⟩
  | .hbm, ⟨28, _⟩ => ⟨S4096x1, .f32⟩
  | .hbm, ⟨29, _⟩ => ⟨S4096x3, .f32⟩
  | .hbm, ⟨30, _⟩ => ⟨S65536x3, .f32⟩
  | .hbm, ⟨31, _⟩ => ⟨S65536x1, .f32⟩
  | .hbm, ⟨32, _⟩ => ⟨S65536x2, .f32⟩
  | .hbm, ⟨33, _⟩ => ⟨S65536x2, .f32⟩
  | .hbm, ⟨34, _⟩ => ⟨S65536x2, .f32⟩
  | .hbm, ⟨35, _⟩ => ⟨S65536x3, .f32⟩
  | .hbm, ⟨36, _⟩ => ⟨S256x256x3, .f32⟩
  | .hbm, ⟨37, _⟩ => ⟨S3x256x256, .f32⟩
  | .hbm, ⟨38, _⟩ => ⟨S1x3x256x256, .f32⟩
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  reducesTo_S65536x2_S65536_d1 : S65536x2.ReducesTo [1] S65536
  h_S_ : 0 < S_.numel
  bcast_S65536_S65536x1_0 : S65536.BroadcastsInDim S65536x1 (![0] : Fin 1 → Fin S65536x1.rank)
  reducesTo_S4096x2_S4096_d1 : S4096x2.ReducesTo [1] S4096
  bcast_S4096_S1x4096_1 : S4096.BroadcastsInDim S1x4096 (![1] : Fin 1 → Fin S1x4096.rank)
  bcast_S65536x1_S65536x4096_0_1 : S65536x1.BroadcastsInDim S65536x4096 (![0, 1] : Fin 2 → Fin S65536x4096.rank)
  bcast_S1x4096_S65536x4096_0_1 : S1x4096.BroadcastsInDim S65536x4096 (![0, 1] : Fin 2 → Fin S65536x4096.rank)
  bcast_S_S65536x2 : S_.BroadcastsInDim S65536x2 (![] : Fin 0 → Fin S65536x2.rank)
  transposes_S4096x2_S2x4096_1_0 : S4096x2.Transposes [1, 0] S2x4096
  bcast_S_S65536x4096 : S_.BroadcastsInDim S65536x4096 (![] : Fin 0 → Fin S65536x4096.rank)
  bcast_S_S4096x1 : S_.BroadcastsInDim S4096x1 (![] : Fin 0 → Fin S4096x1.rank)
  concatenates_S4096x1_S4096x2_S4096x3_d1 : Shape.Concatenates [S4096x1, S4096x2] S4096x3 1
  slices_S65536x3_S65536x1_0_0 : S65536x3.Slices ![0, 0] S65536x1
  slices_S65536x3_S65536x2_0_1 : S65536x3.Slices ![0, 1] S65536x2
  bcast_S65536x1_S65536x2_0_1 : S65536x1.BroadcastsInDim S65536x2 (![0, 1] : Fin 2 → Fin S65536x2.rank)
  concatenates_S65536x1_S65536x2_S65536x3_d1 : Shape.Concatenates [S65536x1, S65536x2] S65536x3 1
  shapeCasts_S65536x3_S256x256x3 : S65536x3.ShapeCasts S256x256x3
  transposes_S256x256x3_S3x256x256_2_1_0 : S256x256x3.Transposes [2, 1, 0] S3x256x256
  bcast_S3x256x256_S1x3x256x256_1_2_3 : S3x256x256.BroadcastsInDim S1x3x256x256 (![1, 2, 3] : Fin 3 → Fin S1x3x256x256.rank)
  dot_S65536x2_S2x4096_S65536x4096_1_0_0_1_n_n_wf : DotDims.WF S65536x2 S2x4096 S65536x4096 [1] [0] [0] [1] [] []
  dot_S65536x4096_S4096x3_S65536x3_1_0_0_1_n_n_wf : DotDims.WF S65536x4096 S4096x3 S65536x3 [1] [0] [0] [1] [] []

variable [Facts₀]

def dot_S65536x2_S2x4096_S65536x4096_1_0_0_1_n_n : DotDims S65536x2 S2x4096 S65536x4096 where
  lhsContracting := [1]
  rhsContracting := [0]
  lhsNonContracting := [0]
  rhsNonContracting := [1]
  lhsBatch := []
  rhsBatch := []
  wf := dot_S65536x2_S2x4096_S65536x4096_1_0_0_1_n_n_wf
def dot_S65536x4096_S4096x3_S65536x3_1_0_0_1_n_n : DotDims S65536x4096 S4096x3 S65536x3 where
  lhsContracting := [1]
  rhsContracting := [0]
  lhsNonContracting := [0]
  rhsNonContracting := [1]
  lhsBatch := []
  rhsBatch := []
  wf := dot_S65536x4096_S4096x3_S65536x3_1_0_0_1_n_n_wf

class Facts : Prop extends Facts₀ where

variable [Facts]
-- ==== Proof.Spec.lean ====
/-
  The set-convolution feature map as one function of the argument arrays, index by index, on the extended reals.

  For a grid point g = (g₀, g₁) and a context point x = (x₀, x₁) the radial-basis weight is
      k(g, x) = exp (−½ ‖g − x‖²),
  written here in the expanded arrangement
      exp ((g₀·x₀ + g₁·x₁) + (−½ (g₀² + g₁²) + −½ (x₀² + x₁²))).
  With E the 4096 × 3 matrix whose row i is (1, yᵢ₀, yᵢ₁), the feature of grid point p in channel c is
      φ(p, c) = ∑ᵢ k(g_p, xᵢ) · E(i, c),
  channel 0 being the density; the output keeps the density and divides the other two channels by it. The
  65536 × 3 map is then laid out as 1 × 3 × 256 × 256 (rows split 256 × 256, axes reversed, a unit axis in front).
-/
import Idealize.ShloMosaic.PureOps.Ideal
import Idealize.ShloMosaic.Lib.ValueIdx

noncomputable section

namespace Cert.SetConv

open Idealize.ShloMosaic Idealize.ShloMosaic.ValueIdx

/-- The context points X and the signals Y: 4096 rows of two reals. -/
abbrev SPts : Shape := ⟨2, ![4096, 2]⟩
/-- The grid: 65536 points of the plane. -/
abbrev SGrid : Shape := ⟨2, ![65536, 2]⟩
/-- The signals with a column of ones in front. -/
abbrev SOnesY : Shape := ⟨2, ![4096, 3]⟩
/-- The feature map, one row per grid point. -/
abbrev SFeat : Shape := ⟨2, ![65536, 3]⟩
abbrev SCube : Shape := ⟨3, ![256, 256, 3]⟩
abbrev SCubeT : Shape := ⟨3, ![3, 256, 256]⟩
abbrev SOut : Shape := ⟨4, ![1, 3, 256, 256]⟩

/-- The literals −½, 1 and 0 as the programs spell them. -/
abbrev negHalf : EReal := Ideal.ofBits .f32 0xBF000000#32
abbrev one : EReal := Ideal.ofBits .f32 0x3F800000#32
abbrev zero : EReal := Ideal.ofBits .f32 0x00000000#32

/-- The two coordinates of context point i (each carried through a product with 1), -/
def x0row (X : SPts.Idx → EReal) (i : Fin 4096) : EReal := X (ix2 i 0) * one
def x1row (X : SPts.Idx → EReal) (i : Fin 4096) : EReal := X (ix2 i 1) * one
/-- −½ ‖xᵢ‖², the squared norm summed from 0, -/
def xsqh (X : SPts.Idx → EReal) (i : Fin 4096) : EReal := negHalf * (zero + ∑ k : Fin 2, X (ix2 i k) * X (ix2 i k))
/-- and −½ ‖g_p‖². -/
def gsqh (g : SGrid.Idx → EReal) (p : Fin 65536) : EReal :=
  negHalf * (g (ix2 p 0) * g (ix2 p 0) + g (ix2 p 1) * g (ix2 p 1))

/-- The exponent −½ ‖g_p − xᵢ‖², expanded: (g₀x₀ + g₁x₁) + (−½‖g‖² + −½‖x‖²). -/
def expArg (X : SPts.Idx → EReal) (g : SGrid.Idx → EReal) (p : Fin 65536) (i : Fin 4096) : EReal :=
  (g (ix2 p 0) * x0row X i + g (ix2 p 1) * x1row X i) + (gsqh g p + xsqh X i)

/-- The radial-basis weight of context point i at grid point p. -/
def gram (X : SPts.Idx → EReal) (g : SGrid.Idx → EReal) (p : Fin 65536) (i : Fin 4096) : EReal :=
  Ideal.exp (expArg X g p i)

/-- The feature of grid point p in channel c: the weights against column c of E. -/
def feat (k : Fin 65536 → Fin 4096 → EReal) (E : SOnesY.Idx → EReal) (p : Fin 65536) (c : Fin 3) : EReal :=
  ∑ i : Fin 4096, k p i * E (ix2 i c)

/-- The output entry: the density in channel 0, the other channels over the density. -/
def outEntry (k : Fin 65536 → Fin 4096 → EReal) (E : SOnesY.Idx → EReal) (p : Fin 65536) (c : Fin 3) : EReal :=
  if c.val = 0 then feat k E p 0 else Ideal.div (feat k E p c) (feat k E p 0)

/-- The normalised feature map as an array. -/
def featureMap (k : Fin 65536 → Fin 4096 → EReal) (E : SOnesY.Idx → EReal) : SFeat.Idx → EReal :=
  fun j => outEntry k E (j 0) (j 1)

theorem featureMap_ix2 (k : Fin 65536 → Fin 4096 → EReal) (E : SOnesY.Idx → EReal) (p : Fin 65536) (c : Fin 3) :
    featureMap k E (ix2 p c) = outEntry k E p c := rfl

/-- The layout both programs end with: rows split 256 × 256, the three axes reversed, a unit axis in front. -/
def layout (h1 : SFeat.ShapeCasts SCube) (h2 : SCube.Transposes [2, 1, 0] SCubeT)
    (h3 : SCubeT.BroadcastsInDim SOut ![1, 2, 3]) (f : SFeat.Idx → EReal) : SOut.Idx → EReal :=
  broadcastInDim SOut ![1, 2, 3] h3 (transpose SCubeT [2, 1, 0] (shapeCast SCube f h1) h2)

end Cert.SetConv

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.Finite.lean ====
/-
  The finite-inputs precondition read back on the extended reals: when the conjunction
  all (|X| < +∞) ∧ all (|Y| < +∞) ∧ all (|g| < +∞) holds, every entry of X and of g is a real number.
-/
import proofs.«149900_j65755949301956_2_alg».proof.Pre_finite_inputs
import proofs.«149900_j65755949301956_2_alg».proof.Proof.LibFiniteReal
import Idealize.ShloMosaic.Lib.ReduceAll
import Idealize.ShloMosaic.Lib.Affine

noncomputable section

namespace Cert.SetConv.Finite

open Idealize.ShloMosaic Idealize.ShloMosaic.ValueIdx
open Cert.Pre_finite_inputs Cert.Pre_finite_inputs.Facts

/-- The precondition is a conjunction of three "all entries are finite" tests; the first and the third say
    that the context points and the grid points have real coordinates. -/
theorem real_of_pre [Cert.Pre_finite_inputs.Facts] (X Y : FVec Ideal S4096x2 .f32) (g : FVec Ideal S65536x2 .f32)
    (h : Cert.Pre_finite_inputs.fn (F := Ideal) X Y g = fun _ => 1#1) :
    (∀ i, ∃ r : ℝ, X i = r) ∧ (∀ i, ∃ r : ℝ, g i = r) := by
  have h0 := congrFun h ValueIdx.ix0
  dsimp only [Cert.Pre_finite_inputs.fn, andi] at h0
  obtain ⟨hXY, hg⟩ := IntOp.andi_eq_one.1 h0
  obtain ⟨hX, hY⟩ := IntOp.andi_eq_one.1 hXY
  exact ⟨fun i => Cert.FiniteReal.real_of_all X _ _ _ hX i, fun i => Cert.FiniteReal.real_of_all g _ _ _ hg i⟩

end Cert.SetConv.Finite

end
-- ==== Proof.RefValue.lean ====
/-
  The reference program's value, read as the set-convolution feature map followed by the output layout.

  The reference computes the squared distance ‖g‖² + ‖x‖² − Σ_k (2 g_k) x_k, multiplies by −½, divides by 1 and
  exponentiates; the specification writes the same exponent as (g₀x₀ + g₁x₁) + (−½‖g‖² + −½‖x‖²). The two agree for
  real g and x (on the extended reals distributivity fails at the infinities, hence the hypothesis).
-/
import proofs.«149900_j65755949301956_2_alg».proof.Proof.Spec
import proofs.«149900_j65755949301956_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.SetConv.Ref

open Idealize.ShloMosaic Idealize.ShloMosaic.ValueIdx
open Cert.ReferenceIdeal Cert.ReferenceIdeal.Gen Cert.ReferenceIdeal.Read

/-- The reference's last three operations are the layout: rows split 256 × 256, the axes reversed, a unit axis in front. -/
theorem ref_layout (h1 : S65536x3.ShapeCasts S256x256x3) (h2 : S256x256x3.Transposes [2, 1, 0] S3x256x256)
    (h3 : S3x256x256.BroadcastsInDim S1x3x256x256 (![1, 2, 3] : Fin 3 → Fin S1x3x256x256.rank))
    (x0 x1 : (⟨S4096x2, .f32⟩ : BufTy).Contents (Elt Ideal)) (x2 : (⟨S65536x2, .f32⟩ : BufTy).Contents (Elt Ideal)) :
    val_main_v29 (F := Ideal) x0 x1 x2 = Cert.SetConv.layout h1 h2 h3 (val_main_v26 (F := Ideal) x0 x1 x2) := rfl

/-! ## The literals -/

/-- The f32 pattern `0xBF000000` is −½. -/
theorem negHalf_eq : Ideal.ofBits .f32 0xBF000000#32 = (((-1 / 2 : ℝ)) : EReal) := by
  simp [Ideal.ofBits, Ideal.ieee, -EReal.coe_mul, -EReal.coe_neg]; norm_num

/-- The f32 pattern `0x40000000` is 2. -/
theorem two_eq : Ideal.ofBits .f32 0x40000000#32 = ((2 : ℝ) : EReal) := by
  simp [Ideal.ofBits, Ideal.ieee, -EReal.coe_mul]; norm_num

/-- The f32 pattern `0x3F800000` is 1. -/
theorem one_eq : Ideal.ofBits .f32 0x3F800000#32 = ((1 : ℝ) : EReal) := by
  simp [Ideal.ofBits, Ideal.ieee, -EReal.coe_mul]; norm_num

/-- The f32 pattern of +0 is 0. -/
theorem zero_eq : Ideal.ofBits .f32 0x00000000#32 = ((0 : ℝ) : EReal) := by
  rw [Ideal.ofBits_zero_f32]; rfl

/-! ## The law: −½ (‖g‖² + ‖x‖² − Σ (2 g_k) x_k) / 1 = (g₀x₀ + g₁x₁) + (−½‖g‖² + −½‖x‖²), for real g and x -/

theorem exponent_law (a b c d : ℝ) :
    Ideal.div ((((-1 / 2 : ℝ)) : EReal) *
        (((((0 : ℝ) : EReal) + ((a : EReal) * a + (b : EReal) * b)) + (((0 : ℝ) : EReal) + ((c : EReal) * c + (d : EReal) * d)))
          - ((((2 : ℝ) : EReal) * a) * c + (((2 : ℝ) : EReal) * b) * d))) ((1 : ℝ) : EReal)
      = ((a : EReal) * ((c : EReal) * ((1 : ℝ) : EReal)) + (b : EReal) * ((d : EReal) * ((1 : ℝ) : EReal)))
        + ((((-1 / 2 : ℝ)) : EReal) * ((a : EReal) * a + (b : EReal) * b)
          + (((-1 / 2 : ℝ)) : EReal) * (((0 : ℝ) : EReal) + ((c : EReal) * c + (d : EReal) * d))) := by
  rw [Ideal.div_coe one_ne_zero]
  simp only [← EReal.coe_mul, ← EReal.coe_add, ← EReal.coe_sub]
  rw [EReal.coe_eq_coe_iff]
  ring

/-! ## The reference's exponent and weight at an index -/

/-- Two rank-2 indices are equal when their two coordinates are. -/
local macro "idx_cases" : tactic =>
  `(tactic| (funext a; apply Fin.ext; match a with | ⟨0, _⟩ => rfl | ⟨1, _⟩ => rfl))

/-- The reference's exponent at (p, i), as the program spells it: −½ · (‖g_p‖² + ‖xᵢ‖² − Σ_k (2 g_pk) x_ik) / 1. -/
theorem ref_exponent (X : SPts.Idx → EReal) (g : SGrid.Idx → EReal) (p : Fin 65536) (i : Fin 4096) :
    val_main_v17 (F := Ideal) X g (ix2 p i) =
      Ideal.div (Ideal.ofBits .f32 0xBF000000#32 *
        (((Ideal.ofBits .f32 0x00000000#32 + ∑ k : Fin 2, g (ix2 p k) * g (ix2 p k))
          + (Ideal.ofBits .f32 0x00000000#32 + ∑ k : Fin 2, X (ix2 i k) * X (ix2 i k)))
          - ∑ k : Fin 2, (Ideal.ofBits .f32 0x40000000#32 * g (ix2 p k)) * X (ix2 i k)))
        (Ideal.ofBits .f32 0x3F800000#32) := by
  have e1 : ∀ k : Fin 2, idx_main_v1 (idx_main_v2 (idx_main_v6 (ix2 p i))) k = ix2 p k := fun k => by idx_cases
  have e4 : ∀ k : Fin 2, idx_main_v4 (idx_main_v5 (idx_main_v7 (ix2 p i))) k = ix2 i k := fun k => by idx_cases
  have el : ∀ k : Fin 2, lidx_main_v12 (ix2 p i) k = ix2 p k := fun k => by idx_cases
  have er : ∀ k : Fin 2, idx_main_v11 (ridx_main_v12 (ix2 p i) k) = ix2 i k := fun k => by idx_cases
  simp only [val_main_v17_apply, val_main_v15_apply, val_main_v16_apply, val_main_cst_3_apply, val_main_v14_apply,
    val_main_cst_2_apply, val_main_v13_apply, val_main_v8_apply, val_main_v6_apply, val_main_v2_apply, val_main_v1_apply,
    val_main_v7_apply, val_main_v5_apply, val_main_v4_apply, val_main_v12_apply, val_main_v0_apply, val_main_v3_apply,
    val_main_v10_apply, val_main_v9_apply, val_main_v11_apply, val_main_cst_apply, val_main_cst_0_apply, val_main_cst_1_apply,
    Ideal.mulf_def, Ideal.addf_def, Ideal.subf_def, Ideal.hostDivf_def, Ideal.ofBits_def, e1, e4, el, er]

/-- The reference's weight exp(exponent) is the radial-basis weight, for real points. -/
theorem ref_gram (X : SPts.Idx → EReal) (g : SGrid.Idx → EReal)
    (hX : ∀ i, ∃ r : ℝ, X i = r) (hg : ∀ i, ∃ r : ℝ, g i = r) (p : Fin 65536) (i : Fin 4096) :
    val_main_v18 (F := Ideal) X g (ix2 p i) = Cert.SetConv.gram X g p i := by
  rw [val_main_v18_apply, Ideal.hostUnary_exp_def, ref_exponent]
  unfold Cert.SetConv.gram Cert.SetConv.expArg Cert.SetConv.gsqh Cert.SetConv.xsqh Cert.SetConv.x0row Cert.SetConv.x1row
  obtain ⟨a, ha⟩ := hg (ix2 p 0)
  obtain ⟨b, hb⟩ := hg (ix2 p 1)
  obtain ⟨c, hc⟩ := hX (ix2 i 0)
  obtain ⟨d, hd⟩ := hX (ix2 i 1)
  simp only [Fin.sum_univ_two, ha, hb, hc, hd, negHalf_eq, two_eq, one_eq, zero_eq]
  exact congrArg Ideal.exp (exponent_law a b c d)

/-! ## The two pieces of the final concatenation, and the contraction against E -/

/-- Channel 0 of the reference's output is the density column of the contraction. -/
theorem ref_out_left (X Y : SPts.Idx → EReal) (g : SGrid.Idx → EReal) (p : Fin 65536) :
    val_main_v26 (F := Ideal) X Y g (ix2 p (0 : Fin 3)) = val_main_v21 (F := Ideal) X Y g (ix2 p (0 : Fin 3)) := by
  unfold val_main_v26
  rw [concatenate_pair_apply_left (1 : Fin S65536x3.rank) _ _ concatenates_S65536x1_S65536x2_S65536x3_d1
    (ix2 p (0 : Fin 3)) rfl (ix2 p (0 : Fin 1)) (fun b => by match b with | ⟨0, _⟩ => rfl | ⟨1, _⟩ => rfl)]
  rw [val_main_v22_apply]
  exact congrArg _ (by idx_cases)

/-- Channels 1 and 2 of the reference's output are the contraction's columns 1 and 2 over its column 0. -/
theorem ref_out_right (X Y : SPts.Idx → EReal) (g : SGrid.Idx → EReal) (p : Fin 65536) (c' : Fin 2) :
    val_main_v26 (F := Ideal) X Y g (ix2 p (⟨1 + c'.val, by have := c'.isLt; omega⟩ : Fin 3)) =
      Ideal.div (val_main_v21 (F := Ideal) X Y g (ix2 p (⟨1 + c'.val, by have := c'.isLt; omega⟩ : Fin 3)))
        (val_main_v21 (F := Ideal) X Y g (ix2 p (0 : Fin 3))) := by
  unfold val_main_v26
  rw [concatenate_pair_apply_right (1 : Fin S65536x3.rank) _ _ concatenates_S65536x1_S65536x2_S65536x3_d1
    (ix2 p (⟨1 + c'.val, by have := c'.isLt; omega⟩ : Fin 3)) rfl rfl (ix2 p c')
    (fun b hb => by
      match b, hb with
      | ⟨0, _⟩, _ => rfl
      | ⟨1, _⟩, hb => exact absurd rfl hb)
    (by show c'.val + 1 = 1 + c'.val; omega)]
  rw [val_main_v25_apply, Ideal.hostDivf_def, val_main_v23_apply, val_main_v24_apply, val_main_v22_apply]
  have e23 : idx_main_v23 (ix2 p c') = ix2 p (⟨1 + c'.val, by have := c'.isLt; omega⟩ : Fin 3) := by idx_cases
  have e22 : idx_main_v22 (idx_main_v24 (ix2 p c')) = ix2 p (0 : Fin 3) := by idx_cases
  rw [e23, e22]

/-- The contraction against E, with the reference's weights read as the radial-basis weights. -/
theorem ref_feat (X Y : SPts.Idx → EReal) (g : SGrid.Idx → EReal)
    (hX : ∀ i, ∃ r : ℝ, X i = r) (hg : ∀ i, ∃ r : ℝ, g i = r) (p : Fin 65536) (c : Fin 3) :
    val_main_v21 (F := Ideal) X Y g (ix2 p c) =
      Cert.SetConv.feat (Cert.SetConv.gram X g) (val_main_v20 (F := Ideal) Y) p c := by
  rw [val_main_v21_apply]
  unfold Cert.SetConv.feat
  refine Finset.sum_congr rfl fun k _ => ?_
  have el : lidx_main_v21 (ix2 p c) k = ix2 p k := by idx_cases
  have er : ridx_main_v21 (ix2 p c) k = ix2 k c := by idx_cases
  rw [el, er, ref_gram X g hX hg]

/-! ## The reference's value before the layout is the normalised feature map -/

theorem ref_featureMap (X Y : SPts.Idx → EReal) (g : SGrid.Idx → EReal)
    (hX : ∀ i, ∃ r : ℝ, X i = r) (hg : ∀ i, ∃ r : ℝ, g i = r) :
    val_main_v26 (F := Ideal) X Y g =
      Cert.SetConv.featureMap (Cert.SetConv.gram X g) (val_main_v20 (F := Ideal) Y) := by
  funext j
  obtain ⟨p, c, rfl⟩ : ∃ (p : Fin 65536) (c : Fin 3), j = ix2 p c := ⟨j 0, j 1, eq_ix2 j⟩
  rw [Cert.SetConv.featureMap_ix2]
  unfold Cert.SetConv.outEntry
  match c with
  | ⟨0, _⟩ =>
    rw [if_pos rfl]
    exact (ref_out_left X Y g p).trans (ref_feat X Y g hX hg p 0)
  | ⟨1, _⟩ =>
    rw [if_neg (show ¬ (1 : ℕ) = 0 by decide)]
    exact (ref_out_right X Y g p 0).trans (by rw [ref_feat X Y g hX hg p 0]; exact congrArg (Ideal.div · _) (ref_feat X Y g hX hg p _))
  | ⟨2, _⟩ =>
    rw [if_neg (show ¬ (2 : ℕ) = 0 by decide)]
    exact (ref_out_right X Y g p 1).trans (by rw [ref_feat X Y g hX hg p 0]; exact congrArg (Ideal.div · _) (ref_feat X Y g hX hg p _))

end Cert.SetConv.Ref

end
-- ==== Proof.KernelPrefix.lean ====
/-
  The resident operands the kernel's host operations build before the region, read at an index:
  the two coordinate rows x₀ᵢ·1 and x₁ᵢ·1, the row −½‖xᵢ‖², and the matrix E = [1 | Y].
-/
import proofs.«149900_j65755949301956_2_alg».proof.Proof.Spec
import proofs.«149900_j65755949301956_2_alg».proof.Proof.Gen.KernelIdeal.Frame
import proofs.«149900_j65755949301956_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.SetConv.Prefix

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- Reading row 0 of a 1 × 4096 broadcast along axis 1 of a vector: the vector's entry. -/
theorem bcast_row_apply (v : S4096.Idx → EReal) (j : Fin 4096) :
    broadcastInDim S1x4096 ![1] bcast_S4096_S1x4096_1 v (ix2 (0 : Fin 1) j) = v (ix1 j) :=
  broadcastInDim_apply ![1] bcast_S4096_S1x4096_1 v (ix2 (0 : Fin 1) j) (ix1 j) (fun a => by
    match a with
    | ⟨0, _⟩ => show j.val = if (4096 : ℕ) = 1 then 0 else j.val; rw [if_neg (by decide)])

/-- Column `o` of a 4096 × 2 matrix, cut out as 4096 × 1 and flattened: entry j is the matrix at (j, o). -/
theorem column_apply (X : S4096x2.Idx → EReal) (o : Fin 2)
    (h : S4096x2.Slices ![0, o.val] S4096x1) (j : Fin 4096) :
    shapeCast S4096 (extractStridedSlice S4096x1 ![0, o.val] X h) shapeCasts_S4096x1_S4096 (ix1 j) = X (ix2 j o) := by
  rw [shapeCast_apply _ shapeCasts_S4096x1_S4096 (ix1 j) (ix2 j (0 : Fin 1))
    (by rw [Shape.rowMajor_val_two, Shape.rowMajor_val_one]; show j.val * 1 + 0 = j.val; omega)]
  exact slice2_axis1_apply o.val X h j (0 : Fin 1) o rfl

/-- The squared norm of row j of a 4096 × 2 matrix, summed from the literal 0 over the two coordinates. -/
theorem sqnorm_apply (X : S4096x2.Idx → EReal) (j : Fin 4096) :
    Host.reduceAdd (mulf X X) (constant (F := Ideal) S_ .f32 0x00000000#32) reducesTo_S4096x2_S4096_d1 h_S_ (ix1 j)
      = Cert.SetConv.zero + ∑ k : Fin 2, X (ix2 j k) * X (ix2 j k) := by
  simp only [Host.reduceAdd, Ideal.hostReduceAdd_def]
  rw [Ideal.hostReduceAdd_single reducesTo_S4096x2_S4096_d1 (by decide)]
  refine congrArg (_ + ·) (Finset.sum_congr rfl fun k _ => ?_)
  exact congrArg (fun i => X i * X i) (funext fun a => Fin.ext (by match a with | ⟨0, _⟩ => rfl | ⟨1, _⟩ => rfl))

/-- The first resident row: x₀ᵢ · 1. -/
theorem v4_apply (c : Dev nD) (j : Fin 4096) :
    (V (F := Ideal) m c main_v4 : S1x4096.Idx → EReal) (ix2 (0 : Fin 1) j)
      = Cert.SetConv.x0row (m ((c : Thread nD τ).loc main_arg0)) j := by
  show (StableHlo.after hostOps0 (fun b => m (c, b)) (Proc.devRef .tc main_v4) : S1x4096.Idx → EReal) (ix2 (0 : Fin 1) j) = _
  after_results
  rw [bcast_row_apply, mulf_apply, broadcastInDim_scalar_apply, constant_apply]
  exact congrArg (· * _) (column_apply (m (c, Proc.devRef .tc main_arg0)) 0 slices_S4096x2_S4096x1_0_0 j)

/-- The second resident row: x₁ᵢ · 1. -/
theorem v9_apply (c : Dev nD) (j : Fin 4096) :
    (V (F := Ideal) m c main_v9 : S1x4096.Idx → EReal) (ix2 (0 : Fin 1) j)
      = Cert.SetConv.x1row (m ((c : Thread nD τ).loc main_arg0)) j := by
  show (StableHlo.after hostOps0 (fun b => m (c, b)) (Proc.devRef .tc main_v9) : S1x4096.Idx → EReal) (ix2 (0 : Fin 1) j) = _
  after_results
  rw [bcast_row_apply, mulf_apply, broadcastInDim_scalar_apply, constant_apply]
  exact congrArg (· * _) (column_apply (m (c, Proc.devRef .tc main_arg0)) 1 slices_S4096x2_S4096x1_0_1 j)

/-- The third resident row: −½ ‖xᵢ‖², the squared norm summed from 0 over the two coordinates. -/
theorem v14_apply (c : Dev nD) (j : Fin 4096) :
    (V (F := Ideal) m c main_v14 : S1x4096.Idx → EReal) (ix2 (0 : Fin 1) j)
      = Cert.SetConv.xsqh (m ((c : Thread nD τ).loc main_arg0)) j := by
  show (StableHlo.after hostOps0 (fun b => m (c, b)) (Proc.devRef .tc main_v14) : S1x4096.Idx → EReal) (ix2 (0 : Fin 1) j) = _
  after_results
  rw [bcast_row_apply, mulf_apply, broadcastInDim_scalar_apply, constant_apply]
  exact congrArg (_ * ·) (sqnorm_apply (m (c, Proc.devRef .tc main_arg0)) j)

/-- The resident matrix E = [1 | Y]: the kernel's concatenation, carried through a change of format that is the
    identity on the extended reals, is the reference's. -/
theorem v17_eq (c : Dev nD) :
    (V (F := Ideal) m c main_v17 : Cert.SetConv.SOnesY.Idx → EReal)
      = Cert.ReferenceIdeal.Read.val_main_v20 (F := Ideal) (m ((c : Thread nD τ).loc main_arg1)) := by
  show (StableHlo.after hostOps0 (fun b => m (c, b)) (Proc.devRef .tc main_v17) : Cert.SetConv.SOnesY.Idx → EReal) = _
  after_results
  funext i
  rw [truncf_apply]
  rfl

end Cert.SetConv.Prefix

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibBlockSum.lean ====
/-
  Sums taken block by block, and a running accumulator over the blocks.

  Every statement holds in any commutative additive monoid `M`, in particular in the extended reals, and none asks that
  a term be finite: only associativity and commutativity of `+` and `0 + a = a` are used.

  • `sum_blocks`: a sum over `T * B` consecutive indices is the sum, over the `T` blocks, of each block's sum over its `B`
    entries, entry `p` of block `t` being index `t * B + p`. `sum_blocks_of_eq` says the same of an index range of any
    length `N` with `N = T * B`.
  • `acc_eq`: an accumulator that is `z + (z + S 0)` after step `0` and grows by `z + S (n + 1)` at step `n + 1`, where
    `z = 0`, is `z + ∑ t < n + 1, S t` after step `n`. `acc_eq_of_lt` asks for the recurrence below a bound only;
    `acc_fin_eq` and `acc_fin_total` are the forms for steps indexed by `Fin T`.
  • `acc_blocks_total`: the two together: an accumulator of block sums ends at `z` plus the sum over all indices.
-/
import Mathlib.Data.EReal.Basic
import Mathlib.Algebra.BigOperators.Fin

open scoped BigOperators

namespace Cert.LibBlockSum

variable {M : Type*} [AddCommMonoid M]

/-- Entry `p` of block `t`, of `T` blocks of `B` entries, is an index below `T * B`. -/
theorem blk_lt {T B : ℕ} (t : Fin T) (p : Fin B) : t.val * B + p.val < T * B := by
  have h1 : (t.val + 1) * B ≤ T * B := Nat.mul_le_mul_right B t.isLt
  have h2 : t.val * B + p.val < (t.val + 1) * B := by
    rw [Nat.add_mul, Nat.one_mul]; exact Nat.add_lt_add_left p.isLt _
  exact lt_of_lt_of_le h2 h1

/-- A sum over `T * B` indices, block by block: `∑ r, f r = ∑ t, ∑ p, f (t * B + p)`. -/
theorem sum_blocks (T B : ℕ) (f : Fin (T * B) → M) :
    ∑ r : Fin (T * B), f r = ∑ t : Fin T, ∑ p : Fin B, f ⟨t.val * B + p.val, blk_lt t p⟩ := by
  rw [← (finProdFinEquiv (m := T) (n := B)).sum_comp f, Fintype.sum_prod_type]
  refine Finset.sum_congr rfl fun t _ => Finset.sum_congr rfl fun p _ => ?_
  refine congrArg f (Fin.ext ?_)
  rw [finProdFinEquiv_apply_val]
  show p.val + B * t.val = t.val * B + p.val
  rw [Nat.mul_comm, Nat.add_comm]

/-- The same for an index range of length `N = T * B`. -/
theorem sum_blocks_of_eq {N : ℕ} (T B : ℕ) (hN : N = T * B) (f : Fin N → M) :
    ∑ r : Fin N, f r
      = ∑ t : Fin T, ∑ p : Fin B, f ⟨t.val * B + p.val, (blk_lt t p).trans_eq hN.symm⟩ := by
  subst hN
  exact sum_blocks T B f

/-- The running accumulator, the recurrence asked for below a bound `T` only. -/
theorem acc_eq_of_lt (T : ℕ) (z : M) (hz : z = 0) (S acc : ℕ → M)
    (h0 : acc 0 = z + (z + S 0))
    (hs : ∀ n, n + 1 < T → acc (n + 1) = acc n + (z + S (n + 1))) :
    ∀ n, n < T → acc n = z + ∑ t ∈ Finset.range (n + 1), S t := by
  subst hz
  intro n
  induction n with
  | zero =>
    intro _
    rw [h0]
    simp only [zero_add, Finset.sum_range_one]
  | succ n ih =>
    intro hn
    rw [hs n hn, ih (Nat.lt_of_succ_lt hn)]
    simp only [zero_add]
    exact (Finset.sum_range_succ S (n + 1)).symm

/-- The running accumulator: from `z + (z + S 0)`, adding `z + S (n + 1)` at step `n + 1`, with `z = 0`. -/
theorem acc_eq (z : M) (hz : z = 0) (S acc : ℕ → M)
    (h0 : acc 0 = z + (z + S 0))
    (hs : ∀ n, acc (n + 1) = acc n + (z + S (n + 1))) (n : ℕ) :
    acc n = z + ∑ t ∈ Finset.range (n + 1), S t :=
  acc_eq_of_lt (n + 1) z hz S acc h0 (fun k _ => hs k) n (Nat.lt_succ_self n)

/-- The running accumulator with steps indexed by `Fin T`: after step `n` it is `z` plus the first `n + 1` terms. -/
theorem acc_fin_eq {T : ℕ} (z : M) (hz : z = 0) (S acc : Fin T → M)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩)) :
    ∀ (n : ℕ) (h : n < T),
      acc ⟨n, h⟩ = z + ∑ t : Fin (n + 1), S ⟨t.val, Nat.lt_of_lt_of_le t.isLt (Nat.succ_le_of_lt h)⟩ := by
  subst hz
  intro n
  induction n with
  | zero =>
    intro h
    rw [h0 h]
    simp only [zero_add, Fin.sum_univ_castSucc, Fin.sum_univ_zero]
    rfl
  | succ n ih =>
    intro h
    rw [hs n h, ih (Nat.lt_of_succ_lt h), Fin.sum_univ_castSucc (n := n + 1)]
    simp only [zero_add]
    rfl

/-- The running accumulator over all `T = n + 1` steps: after the last step it is `z` plus the sum of all terms. -/
theorem acc_fin_total {T : ℕ} (z : M) (hz : z = 0) (S acc : Fin T → M)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩))
    (n : ℕ) (hT : T = n + 1) :
    acc ⟨n, hT ▸ Nat.lt_succ_self n⟩ = z + ∑ t : Fin T, S t := by
  subst hT
  exact acc_fin_eq z hz S acc h0 hs n (Nat.lt_succ_self n)

/-- An accumulator of block sums: if step `t` adds the sum of block `t` of `f`, then after the last of the `T = n + 1`
    steps the accumulator is `z` plus the sum of `f` over all `N = T * B` indices. -/
theorem acc_blocks_total {N : ℕ} (T B : ℕ) (hN : N = T * B) (z : M) (hz : z = 0) (f : Fin N → M) (S acc : Fin T → M)
    (hS : ∀ t : Fin T, S t = ∑ p : Fin B, f ⟨t.val * B + p.val, (blk_lt t p).trans_eq hN.symm⟩)
    (h0 : ∀ h : 0 < T, acc ⟨0, h⟩ = z + (z + S ⟨0, h⟩))
    (hs : ∀ n (h : n + 1 < T), acc ⟨n + 1, h⟩ = acc ⟨n, Nat.lt_of_succ_lt h⟩ + (z + S ⟨n + 1, h⟩))
    (n : ℕ) (hT : T = n + 1) :
    acc ⟨n, hT ▸ Nat.lt_succ_self n⟩ = z + ∑ r : Fin N, f r := by
  rw [acc_fin_total z hz S acc h0 hs n hT, sum_blocks_of_eq T B hN f]
  exact congrArg (z + ·) (Finset.sum_congr rfl fun t _ => hS t)

/-- The shape of use: 50000 rows in 25 blocks of 2000, in the extended reals. -/
example (f : Fin 50000 → EReal) :
    ∑ r : Fin 50000, f r = ∑ t : Fin 25, ∑ p : Fin 2000, f ⟨t.val * 2000 + p.val, (blk_lt t p).trans_eq (by norm_num)⟩ :=
  sum_blocks_of_eq 25 2000 (by norm_num) f

end Cert.LibBlockSum
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.KernelEntry.lean ====
/-
  One row block of the kernel, read at an entry.

  The body works on 1024 grid points at a time. With g = (g₀, g₁) the block of grid points, and the three rows
  a(j) = x_j0, b(j) = x_j1, d(j) = −½‖x_j‖² over the 4096 context points, it forms the weights
      w(r, j) = exp ((g₀(r)·a(j) + g₁(r)·b(j)) + (−½(g₀(r)² + g₁(r)²) + d(j)))
  a slab of 1024 columns at a time, and accumulates the four slab products with the matching 1024 rows of E:
      φ(r, c) = (((0 + Σ_slab0) + Σ_slab1) + Σ_slab2) + Σ_slab3.
  Addition of extended reals is associative and commutative and 0 is neutral, so this is the one sum
  Σ_{j < 4096} w(r, j)·E(j, c): no finiteness is needed here.
-/
import proofs.«149900_j65755949301956_2_alg».proof.Proof.Gen.KernelIdeal.Skeleton
import proofs.«149900_j65755949301956_2_alg».proof.Proof.Spec
import proofs.«149900_j65755949301956_2_alg».proof.Proof.LibPlainDot
import proofs.«149900_j65755949301956_2_alg».proof.Proof.LibBlockSum
import proofs.«149900_j65755949301956_2_alg».proof.Proof.LibKeepdimsLayout
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

namespace Cert.SetConv.Kernel

open Idealize.ShloMosaic Idealize.ShloMosaic.ValueIdx Cert.KernelIdeal Cert.KernelIdeal.Gen

variable {F : FTy → Type} [FloatOps F]

/-! ## The payloads as two named expressions -/

/-- A slab of weights: exp ((g₀ ⊗ a + g₁ ⊗ b) + (h ⊗ 1 + 1 ⊗ d)) over 1024 × 1024, g₀ g₁ h columns, a b d rows. -/
def slab (g0 g1 : Vec F S1024x1 .f32) (h : FVec F S1024x1 .f32) (a b d : FVec F S1x1024 .f32) : FVec F S1024x1024 .bf16 :=
  truncf .bf16 (exp (addf
    (addf (mulf (broadcastTo S1024x1024 g0 broadcasts_S1024x1_S1024x1024) (broadcastTo S1024x1024 a broadcasts_S1x1024_S1024x1024))
      (mulf (broadcastTo S1024x1024 g1 broadcasts_S1024x1_S1024x1024) (broadcastTo S1024x1024 b broadcasts_S1x1024_S1024x1024)))
    (addf (broadcastTo S1024x1024 h broadcasts_S1024x1_S1024x1024) (broadcastTo S1024x1024 d broadcasts_S1x1024_S1024x1024)))) bitsLt_bf16_f32

/-- One accumulation step: the accumulator plus the product of a slab with 1024 rows of E. -/
def chunk (acc : FVec F S1024x3 .f32) (W : FVec F S1024x1024 .bf16) (E : FVec F S1024x3 .bf16) : FVec F S1024x3 .f32 :=
  addf acc (matmul dot_S1024x1024_S1024x3_S1024x3_1_0_0_1_n_n none W E (constant S1024x3 .f32 0x00000000#32))

/-- The accumulated features of the block, from the loaded columns, rows and row groups of E. -/
def blockFeat (g0 g1 : Vec F S1024x1 .f32) (a0 b0 d0 a1 b1 d1 a2 b2 d2 a3 b3 d3 : Vec F S1x1024 .f32)
    (e0 e1 e2 e3 : Vec F S1024x3 .bf16) : FVec F S1024x3 .f32 :=
  chunk (chunk (chunk (chunk (broadcast S1024x3 (Scalar.ofBits .f32 0x00000000#32))
    (slab g0 g1 (k0_pay4 g0 g1) a0 b0 d0) e0) (slab g0 g1 (k0_pay4 g0 g1) a1 b1 d1) e1)
    (slab g0 g1 (k0_pay4 g0 g1) a2 b2 d2) e2) (slab g0 g1 (k0_pay4 g0 g1) a3 b3 d3) e3

/-- The last accumulation payload, over the earlier ones, is the four-step accumulation. -/
theorem pay1_eq (g0 g1 : Vec F S1024x1 .f32) (a0 b0 d0 a1 b1 d1 a2 b2 d2 a3 b3 d3 : Vec F S1x1024 .f32)
    (e0 e1 e2 e3 : Vec F S1024x3 .bf16) :
    k0_pay1 g0 g1 (k0_pay4 g0 g1)
      (k0_pay7 g0 g1 (k0_pay4 g0 g1) (k0_pay5 g0 g1 a0 b0 d0 e0) (k0_pay6 a1) b1 d1 e1)
      (k0_pay8 g0 g1 (k0_pay4 g0 g1) a2 b2 d2) (k0_pay9 e2) a3 b3 d3 e3
      = blockFeat g0 g1 a0 b0 d0 a1 b1 d1 a2 b2 d2 a3 b3 d3 e0 e1 e2 e3 := by
  unfold k0_pay1 k0_pay7 k0_pay5 k0_pay8 k0_pay6 k0_pay9 blockFeat chunk slab
  simp only [shapeCast_self]

/-! ## Read at an entry, on the extended reals -/

/-- A slab entry: exp of the bilinear part plus the two norm terms. -/
theorem slab_apply (g0 g1 h : FVec Ideal S1024x1 .f32) (a b d : FVec Ideal S1x1024 .f32) (r j : Fin 1024) :
    slab g0 g1 h a b d (ix2 r j)
      = Ideal.exp ((g0 (ix2 r 0) * a (ix2 0 j) + g1 (ix2 r 0) * b (ix2 0 j)) + (h (ix2 r 0) + d (ix2 0 j))) := by
  unfold slab
  rw [truncf_apply]
  show Ideal.exp _ = _
  rw [addf_apply, addf_apply, addf_apply, mulf_apply, mulf_apply,
    Cert.KernelIdeal.Val.broadcastTo_a1_ab_apply, Cert.KernelIdeal.Val.broadcastTo_a1_ab_apply,
    Cert.KernelIdeal.Val.broadcastTo_a1_ab_apply, broadcastTo_1b_ab_apply, broadcastTo_1b_ab_apply, broadcastTo_1b_ab_apply]

/-- One accumulation step at an entry: the accumulator plus Σₖ W(r, k)·E(k, c). -/
theorem chunk_apply (acc : FVec Ideal S1024x3 .f32) (W : FVec Ideal S1024x1024 .bf16) (E : FVec Ideal S1024x3 .bf16)
    (r : Fin 1024) (c : Fin 3) :
    chunk acc W E (ix2 r c) = acc (ix2 r c) + ∑ k : Fin 1024, W (ix2 r k) * E (ix2 k c) := by
  unfold chunk
  rw [addf_apply]
  exact congrArg (acc (ix2 r c) + ·)
    (Cert.LibPlainDot.matmul_zero_apply dot_S1024x1024_S1024x3_S1024x3_1_0_0_1_n_n_wf none W E r c)

/-- −½ (g₀² + g₁²) at a row. -/
theorem pay4_apply (g0 g1 : FVec Ideal S1024x1 .f32) (r : Fin 1024) :
    k0_pay4 (F := Ideal) g0 g1 (ix2 r 0) = negHalf * (g0 (ix2 r 0) * g0 (ix2 r 0) + g1 (ix2 r 0) * g1 (ix2 r 0)) := rfl

/-- A load of m₀ × m₁ entries from offset (o₀, o₁) reads the source at offset plus local coordinate. -/
theorem ld_unit_ix2 {Val : EltTy → Type} {e : EltTy} {n0 n1 m0 m1 : Nat} (X : (⟨2, ![n0, n1]⟩ : Shape).Idx → Val e) (o0 o1 : Nat)
    (inb : ∀ a, (![o0, o1] : Fin 2 → Nat) a + (![m0, m1] : Fin 2 → Nat) a ≤ (⟨2, ![n0, n1]⟩ : Shape).size a)
    (a : Fin m0) (b : Fin m1) (a' : Fin n0) (b' : Fin n1) (ha : a'.val = o0 + a.val) (hb : b'.val = o1 + b.val) :
    View.ld X (Rect.unit (s := ⟨2, ![n0, n1]⟩) ![o0, o1] ![m0, m1] inb) (ix2 a b) = X (ix2 a' b') := by
  show X _ = X _
  refine congrArg X (funext fun ax => Fin.ext ?_)
  match ax with
  | ⟨0, _⟩ => show o0 + 1 * a.val = a'.val; omega
  | ⟨1, _⟩ => show o1 + 1 * b.val = b'.val; omega

/-- The weight of context point j at row r of a block, from the block's source arrays. -/
def wBlock (x0 : FVec Ideal S1024x2 .f32) (x1 x2 x3 : FVec Ideal S1x4096 .f32) (r : Fin 1024) (j : Fin 4096) : EReal :=
  Ideal.exp ((x0 (ix2 r 0) * x1 (ix2 0 j) + x0 (ix2 r 1) * x2 (ix2 0 j))
    + (negHalf * (x0 (ix2 r 0) * x0 (ix2 r 0) + x0 (ix2 r 1) * x0 (ix2 r 1)) + x3 (ix2 0 j)))

/-- One slab's product, summed: the 1024 context points from `off` on. -/
theorem slabSum (x0 : FVec Ideal S1024x2 .f32) (x1 x2 x3 : FVec Ideal S1x4096 .f32) (x4 : FVec Ideal S4096x3 .bf16)
    (off : Nat) (hoff : off + 1024 ≤ 4096)
    (i00 : ∀ a, (![0, 0] : Fin 2 → Nat) a + (![1024, 1] : Fin 2 → Nat) a ≤ S1024x2.size a)
    (i01 : ∀ a, (![0, 1] : Fin 2 → Nat) a + (![1024, 1] : Fin 2 → Nat) a ≤ S1024x2.size a)
    (pr : ∀ a, (![0, off] : Fin 2 → Nat) a + (![1, 1024] : Fin 2 → Nat) a ≤ S1x4096.size a)
    (pe : ∀ a, (![off, 0] : Fin 2 → Nat) a + (![1024, 3] : Fin 2 → Nat) a ≤ S4096x3.size a)
    (r : Fin 1024) (c : Fin 3) :
    ∑ k : Fin 1024,
        slab (View.ld (Val := Elt Ideal) (e' := .f32) x0 (Rect.unit (s := S1024x2) ![0, 0] ![1024, 1] i00)) (View.ld (Val := Elt Ideal) (e' := .f32) x0 (Rect.unit (s := S1024x2) ![0, 1] ![1024, 1] i01))
          (k0_pay4 (View.ld (Val := Elt Ideal) (e' := .f32) x0 (Rect.unit (s := S1024x2) ![0, 0] ![1024, 1] i00)) (View.ld (Val := Elt Ideal) (e' := .f32) x0 (Rect.unit (s := S1024x2) ![0, 1] ![1024, 1] i01)))
          (View.ld (Val := Elt Ideal) (e' := .f32) x1 (Rect.unit (s := S1x4096) ![0, off] ![1, 1024] pr)) (View.ld (Val := Elt Ideal) (e' := .f32) x2 (Rect.unit (s := S1x4096) ![0, off] ![1, 1024] pr))
          (View.ld (Val := Elt Ideal) (e' := .f32) x3 (Rect.unit (s := S1x4096) ![0, off] ![1, 1024] pr)) (ix2 r k)
          * View.ld (Val := Elt Ideal) (e' := .bf16) x4 (Rect.unit (s := S4096x3) ![off, 0] ![1024, 3] pe) (ix2 k c)
      = ∑ k : Fin 1024, wBlock x0 x1 x2 x3 r ⟨off + k.val, by have := k.isLt; omega⟩
          * x4 (ix2 ⟨off + k.val, by have := k.isLt; omega⟩ c) := by
  refine Finset.sum_congr rfl fun k _ => ?_
  have hk : off + k.val < 4096 := by have := k.isLt; omega
  rw [slab_apply, pay4_apply]
  unfold wBlock
  have h00 : View.ld (Val := Elt Ideal) (e' := .f32) x0 (Rect.unit (s := S1024x2) ![0, 0] ![1024, 1] i00) (ix2 r 0) = x0 (ix2 r 0) :=
    ld_unit_ix2 (Val := Elt Ideal) (e := .f32) x0 0 0 i00 r (0 : Fin 1) r (0 : Fin 2) (by simp) (by simp)
  have h01 : View.ld (Val := Elt Ideal) (e' := .f32) x0 (Rect.unit (s := S1024x2) ![0, 1] ![1024, 1] i01) (ix2 r 0) = x0 (ix2 r 1) :=
    ld_unit_ix2 (Val := Elt Ideal) (e := .f32) x0 0 1 i01 r (0 : Fin 1) r (1 : Fin 2) (by simp) (by simp)
  have h1 : View.ld (Val := Elt Ideal) (e' := .f32) x1 (Rect.unit (s := S1x4096) ![0, off] ![1, 1024] pr) (ix2 0 k) = x1 (ix2 0 ⟨off + k.val, hk⟩) :=
    ld_unit_ix2 (Val := Elt Ideal) (e := .f32) x1 0 off pr (0 : Fin 1) k (0 : Fin 1) ⟨off + k.val, hk⟩ (by simp) rfl
  have h2 : View.ld (Val := Elt Ideal) (e' := .f32) x2 (Rect.unit (s := S1x4096) ![0, off] ![1, 1024] pr) (ix2 0 k) = x2 (ix2 0 ⟨off + k.val, hk⟩) :=
    ld_unit_ix2 (Val := Elt Ideal) (e := .f32) x2 0 off pr (0 : Fin 1) k (0 : Fin 1) ⟨off + k.val, hk⟩ (by simp) rfl
  have h3 : View.ld (Val := Elt Ideal) (e' := .f32) x3 (Rect.unit (s := S1x4096) ![0, off] ![1, 1024] pr) (ix2 0 k) = x3 (ix2 0 ⟨off + k.val, hk⟩) :=
    ld_unit_ix2 (Val := Elt Ideal) (e := .f32) x3 0 off pr (0 : Fin 1) k (0 : Fin 1) ⟨off + k.val, hk⟩ (by simp) rfl
  have h4 : View.ld (Val := Elt Ideal) (e' := .bf16) x4 (Rect.unit (s := S4096x3) ![off, 0] ![1024, 3] pe) (ix2 k c) = x4 (ix2 ⟨off + k.val, hk⟩ c) :=
    ld_unit_ix2 (Val := Elt Ideal) (e := .bf16) x4 off 0 pe k c ⟨off + k.val, hk⟩ c rfl (by simp)
  rw [h00, h01, h1, h2, h3, h4]

/-- The accumulated features of a block, from its source arrays: ONE sum over the 4096 context points. The four slab
    sums are the four blocks of 1024 consecutive terms of that sum, added in order from 0. -/
theorem blockFeat_ld (x0 : FVec Ideal S1024x2 .f32) (x1 x2 x3 : FVec Ideal S1x4096 .f32) (x4 : FVec Ideal S4096x3 .bf16)
    (i00 : ∀ a, (![0, 0] : Fin 2 → Nat) a + (![1024, 1] : Fin 2 → Nat) a ≤ S1024x2.size a)
    (i01 : ∀ a, (![0, 1] : Fin 2 → Nat) a + (![1024, 1] : Fin 2 → Nat) a ≤ S1024x2.size a)
    (pr0 : ∀ a, (![0, 0] : Fin 2 → Nat) a + (![1, 1024] : Fin 2 → Nat) a ≤ S1x4096.size a)
    (pr1 : ∀ a, (![0, 1024] : Fin 2 → Nat) a + (![1, 1024] : Fin 2 → Nat) a ≤ S1x4096.size a)
    (pr2 : ∀ a, (![0, 2048] : Fin 2 → Nat) a + (![1, 1024] : Fin 2 → Nat) a ≤ S1x4096.size a)
    (pr3 : ∀ a, (![0, 3072] : Fin 2 → Nat) a + (![1, 1024] : Fin 2 → Nat) a ≤ S1x4096.size a)
    (pe0 : ∀ a, (![0, 0] : Fin 2 → Nat) a + (![1024, 3] : Fin 2 → Nat) a ≤ S4096x3.size a)
    (pe1 : ∀ a, (![1024, 0] : Fin 2 → Nat) a + (![1024, 3] : Fin 2 → Nat) a ≤ S4096x3.size a)
    (pe2 : ∀ a, (![2048, 0] : Fin 2 → Nat) a + (![1024, 3] : Fin 2 → Nat) a ≤ S4096x3.size a)
    (pe3 : ∀ a, (![3072, 0] : Fin 2 → Nat) a + (![1024, 3] : Fin 2 → Nat) a ≤ S4096x3.size a)
    (r : Fin 1024) (c : Fin 3) :
    blockFeat (View.ld (Val := Elt Ideal) (e' := .f32) x0 (Rect.unit (s := S1024x2) ![0, 0] ![1024, 1] i00)) (View.ld (Val := Elt Ideal) (e' := .f32) x0 (Rect.unit (s := S1024x2) ![0, 1] ![1024, 1] i01))
      (View.ld (Val := Elt Ideal) (e' := .f32) x1 (Rect.unit (s := S1x4096) ![0, 0] ![1, 1024] pr0)) (View.ld (Val := Elt Ideal) (e' := .f32) x2 (Rect.unit (s := S1x4096) ![0, 0] ![1, 1024] pr0)) (View.ld (Val := Elt Ideal) (e' := .f32) x3 (Rect.unit (s := S1x4096) ![0, 0] ![1, 1024] pr0))
      (View.ld (Val := Elt Ideal) (e' := .f32) x1 (Rect.unit (s := S1x4096) ![0, 1024] ![1, 1024] pr1)) (View.ld (Val := Elt Ideal) (e' := .f32) x2 (Rect.unit (s := S1x4096) ![0, 1024] ![1, 1024] pr1)) (View.ld (Val := Elt Ideal) (e' := .f32) x3 (Rect.unit (s := S1x4096) ![0, 1024] ![1, 1024] pr1))
      (View.ld (Val := Elt Ideal) (e' := .f32) x1 (Rect.unit (s := S1x4096) ![0, 2048] ![1, 1024] pr2)) (View.ld (Val := Elt Ideal) (e' := .f32) x2 (Rect.unit (s := S1x4096) ![0, 2048] ![1, 1024] pr2)) (View.ld (Val := Elt Ideal) (e' := .f32) x3 (Rect.unit (s := S1x4096) ![0, 2048] ![1, 1024] pr2))
      (View.ld (Val := Elt Ideal) (e' := .f32) x1 (Rect.unit (s := S1x4096) ![0, 3072] ![1, 1024] pr3)) (View.ld (Val := Elt Ideal) (e' := .f32) x2 (Rect.unit (s := S1x4096) ![0, 3072] ![1, 1024] pr3)) (View.ld (Val := Elt Ideal) (e' := .f32) x3 (Rect.unit (s := S1x4096) ![0, 3072] ![1, 1024] pr3))
      (View.ld (Val := Elt Ideal) (e' := .bf16) x4 (Rect.unit (s := S4096x3) ![0, 0] ![1024, 3] pe0))
      (View.ld (Val := Elt Ideal) (e' := .bf16) x4 (Rect.unit (s := S4096x3) ![1024, 0] ![1024, 3] pe1))
      (View.ld (Val := Elt Ideal) (e' := .bf16) x4 (Rect.unit (s := S4096x3) ![2048, 0] ![1024, 3] pe2))
      (View.ld (Val := Elt Ideal) (e' := .bf16) x4 (Rect.unit (s := S4096x3) ![3072, 0] ![1024, 3] pe3))
      (ix2 r c)
      = ∑ j : Fin 4096, wBlock x0 x1 x2 x3 r j * x4 (ix2 j c) := by
  unfold blockFeat
  rw [chunk_apply, chunk_apply, chunk_apply, chunk_apply, broadcast_apply,
    slabSum x0 x1 x2 x3 x4 0 (by norm_num) i00 i01 pr0 pe0 r c, slabSum x0 x1 x2 x3 x4 1024 (by norm_num) i00 i01 pr1 pe1 r c,
    slabSum x0 x1 x2 x3 x4 2048 (by norm_num) i00 i01 pr2 pe2 r c, slabSum x0 x1 x2 x3 x4 3072 (by norm_num) i00 i01 pr3 pe3 r c,
    Cert.LibBlockSum.sum_blocks_of_eq 4 1024 (by norm_num) (fun j : Fin 4096 => wBlock x0 x1 x2 x3 r j * x4 (ix2 j c)),
    Fin.sum_univ_four]
  have hz : (Scalar.ofBits .f32 0x00000000#32 : Ideal .f32) = 0 := Ideal.ofBits_zero_f32
  rw [hz, zero_add]
  rfl

/-! ## The two stored payloads, and what two column stores leave -/

section Stored

variable (v0 v1 : Vec Ideal S1024x1 .f32) (v6 : FVec Ideal S1024x1 .f32) (v65 : FVec Ideal S1024x3 .f32)
  (v89 : FVec Ideal S1024x1024 .bf16) (v92 : FVec Ideal S1024x3 .bf16) (v98 v101 v104 : Vec Ideal S1x1024 .f32)
  (v120 : Vec Ideal S1024x3 .bf16)

/-- The density column stored first is column 0 of the accumulated features. -/
theorem pay2_apply (r : Fin 1024) :
    k0_pay2 (F := Ideal) v0 v1 v6 v65 v89 v92 v98 v101 v104 v120 (ix2 r (0 : Fin 1)) = k0_pay1 (F := Ideal) v0 v1 v6 v65 v89 v92 v98 v101 v104 v120 (ix2 r (0 : Fin 3)) :=
  slice2_axis1_apply (α := EReal) 0 (k0_pay1 (F := Ideal) v0 v1 v6 v65 v89 v92 v98 v101 v104 v120) slices_S1024x3_o0_0_S1024x1 r (0 : Fin 1) (0 : Fin 3) rfl

/-- The two columns stored next are columns 1 and 2 of the accumulated features, each over the density. -/
theorem pay3_apply (r : Fin 1024) (c' : Fin 2) :
    k0_pay3 (F := Ideal) v0 v1 v6 v65 v89 v92 v98 v101 v104 v120 (ix2 r c')
      = Ideal.div (k0_pay1 (F := Ideal) v0 v1 v6 v65 v89 v92 v98 v101 v104 v120 (ix2 r (⟨1 + c'.val, by have := c'.isLt; omega⟩ : Fin 3)))
          (k0_pay1 (F := Ideal) v0 v1 v6 v65 v89 v92 v98 v101 v104 v120 (ix2 r (0 : Fin 3))) := by
  show Ideal.div (extractStridedSlice S1024x2 ![0, 1] (k0_pay1 (F := Ideal) v0 v1 v6 v65 v89 v92 v98 v101 v104 v120) slices_S1024x3_o0_1_S1024x2 (ix2 r c'))
      (broadcastTo S1024x2 (k0_pay2 (F := Ideal) v0 v1 v6 v65 v89 v92 v98 v101 v104 v120) broadcasts_S1024x1_S1024x2 (ix2 r c')) = _
  rw [slice2_axis1_apply (α := EReal) 1 (k0_pay1 (F := Ideal) v0 v1 v6 v65 v89 v92 v98 v101 v104 v120) slices_S1024x3_o0_1_S1024x2 r c'
      (⟨1 + c'.val, by have := c'.isLt; omega⟩ : Fin 3) rfl,
    Cert.KernelIdeal.Val.broadcastTo_a1_ab_apply, pay2_apply]

end Stored

end Cert.SetConv.Kernel

end
-- ==== Proof.LibColumnStores.lean ====
/-
  GENERAL LEMMA: what two column stores leave in an n × 3 block.

  A buffer of shape [n, 3] is filled by two stores through unit-stride rectangles: first column 0 (an [n, 1] payload at
  offset (0, 0)), then columns 1 and 2 (an [n, 2] payload at offset (0, 1)). Read back as the canonical contents of the
  list of writes (last write first), the block holds at (r, 0) the first payload at (r, 0), and at (r, 1 + c') the second
  payload at (r, c'). General in the number of rows n and in the element type; imports only the library.
-/
import Idealize.ShloMosaic.Lib.Pipeline.FrameBody
import Idealize.ShloMosaic.Lib.ValueIdx

noncomputable section

namespace Cert.LibColumnStores

open Idealize.ShloMosaic Idealize.ShloMosaic.ValueIdx

variable {Val : EltTy → Type} [∀ e, Nonempty (Val e)] {e : EltTy} {n : Nat}

/-- The rectangle of columns 1 and 2, and the rectangle of column 0. -/
abbrev cols12 (inb12 : ∀ a, (![0, 1] : Fin 2 → Nat) a + (![n, 2] : Fin 2 → Nat) a ≤ (⟨2, ![n, 3]⟩ : Shape).size a) :
    Rect (⟨2, ![n, 3]⟩ : Shape) := Rect.unit ![0, 1] ![n, 2] inb12
abbrev col0 (inb0 : ∀ a, (![0, 0] : Fin 2 → Nat) a + (![n, 1] : Fin 2 → Nat) a ≤ (⟨2, ![n, 3]⟩ : Shape).size a) :
    Rect (⟨2, ![n, 3]⟩ : Shape) := Rect.unit ![0, 0] ![n, 1] inb0

/-- Column 0 is not among columns 1 and 2. -/
theorem col0_not_mem (inb12 : ∀ a, (![0, 1] : Fin 2 → Nat) a + (![n, 2] : Fin 2 → Nat) a ≤ (⟨2, ![n, 3]⟩ : Shape).size a)
    (r : Fin n) : ix2 r (0 : Fin 3) ∉ (cols12 inb12).set := by
  rw [Rect.mem_set_unit]
  intro h
  have h1 : (1 : Nat) ≤ 0 := (h 1).1
  omega

/-- Row r of the column-0 rectangle sits at (r, 0) of the block. -/
theorem col0_emb (inb0 : ∀ a, (![0, 0] : Fin 2 → Nat) a + (![n, 1] : Fin 2 → Nat) a ≤ (⟨2, ![n, 3]⟩ : Shape).size a)
    (r : Fin n) : (col0 inb0).emb (ix2 r (0 : Fin 1)) = ix2 r (0 : Fin 3) :=
  funext fun a => Fin.ext (by
    match a with
    | ⟨0, _⟩ => show 0 + 1 * r.val = r.val; omega
    | ⟨1, _⟩ => rfl)

/-- Entry (r, c') of the columns-1-and-2 rectangle sits at (r, 1 + c') of the block. -/
theorem cols12_emb (inb12 : ∀ a, (![0, 1] : Fin 2 → Nat) a + (![n, 2] : Fin 2 → Nat) a ≤ (⟨2, ![n, 3]⟩ : Shape).size a)
    (r : Fin n) (c' : Fin 2) :
    (cols12 inb12).emb (ix2 r c') = ix2 r (⟨1 + c'.val, by have := c'.isLt; omega⟩ : Fin 3) :=
  funext fun a => Fin.ext (by
    match a with
    | ⟨0, _⟩ => show 0 + 1 * r.val = r.val; omega
    | ⟨1, _⟩ => show 1 + 1 * c'.val = 1 + c'.val; omega)

/-- At column 0 the block holds the first store's payload. -/
theorem canon_col0 (w12 : (⟨2, ![n, 2]⟩ : Shape).Idx → Val e) (w0 : (⟨2, ![n, 1]⟩ : Shape).Idx → Val e)
    (inb12 : ∀ a, (![0, 1] : Fin 2 → Nat) a + (![n, 2] : Fin 2 → Nat) a ≤ (⟨2, ![n, 3]⟩ : Shape).size a)
    (inb0 : ∀ a, (![0, 0] : Fin 2 → Nat) a + (![n, 1] : Fin 2 → Nat) a ≤ (⟨2, ![n, 3]⟩ : Shape).size a) (r : Fin n) :
    View.canon [(⟨cols12 inb12, w12⟩ : View.Piece Val ⟨2, ![n, 3]⟩ e), (⟨col0 inb0, w0⟩ : View.Piece Val ⟨2, ![n, 3]⟩ e)]
      (ix2 r (0 : Fin 3)) = w0 (ix2 r (0 : Fin 1)) :=
  (View.canon_cons_of_not_mem (⟨cols12 inb12, w12⟩ : View.Piece Val ⟨2, ![n, 3]⟩ e)
      [(⟨col0 inb0, w0⟩ : View.Piece Val ⟨2, ![n, 3]⟩ e)] (col0_not_mem inb12 r)).trans
    ((congrArg (View.canon [(⟨col0 inb0, w0⟩ : View.Piece Val ⟨2, ![n, 3]⟩ e)]) (col0_emb inb0 r).symm).trans
      (View.canon_cons_emb (col0 inb0) w0 [] (ix2 r (0 : Fin 1))))

/-- At column 1 + c' it holds the second store's payload at column c'. -/
theorem canon_cols12 (w12 : (⟨2, ![n, 2]⟩ : Shape).Idx → Val e) (w0 : (⟨2, ![n, 1]⟩ : Shape).Idx → Val e)
    (inb12 : ∀ a, (![0, 1] : Fin 2 → Nat) a + (![n, 2] : Fin 2 → Nat) a ≤ (⟨2, ![n, 3]⟩ : Shape).size a)
    (inb0 : ∀ a, (![0, 0] : Fin 2 → Nat) a + (![n, 1] : Fin 2 → Nat) a ≤ (⟨2, ![n, 3]⟩ : Shape).size a)
    (r : Fin n) (c' : Fin 2) :
    View.canon [(⟨cols12 inb12, w12⟩ : View.Piece Val ⟨2, ![n, 3]⟩ e), (⟨col0 inb0, w0⟩ : View.Piece Val ⟨2, ![n, 3]⟩ e)]
      (ix2 r (⟨1 + c'.val, by have := c'.isLt; omega⟩ : Fin 3)) = w12 (ix2 r c') :=
  (congrArg (View.canon [(⟨cols12 inb12, w12⟩ : View.Piece Val ⟨2, ![n, 3]⟩ e), (⟨col0 inb0, w0⟩ : View.Piece Val ⟨2, ![n, 3]⟩ e)])
      (cols12_emb inb12 r c').symm).trans
    (View.canon_cons_emb (cols12 inb12) w12 [(⟨col0 inb0, w0⟩ : View.Piece Val ⟨2, ![n, 3]⟩ e)] (ix2 r c'))

end Cert.LibColumnStores

end
-- ==== Proof.KernelBlock.lean ====
/-
  What the body leaves in its output block, and that block read at an entry.

  The body stores the density column (channel 0 of the accumulated features) into column 0 of the 1024 × 3 block, and
  the other two channels, each divided by the density, into columns 1 and 2. Read back, entry (r, c) of the block is
      φ(r, 0) for c = 0,    φ(r, c) / φ(r, 0) for c = 1, 2,
  with φ(r, c) = Σ_{j < 4096} w(r, j)·E(j, c) the one sum of the block's weights against column c of E.
-/
import proofs.«149900_j65755949301956_2_alg».proof.Proof.KernelEntry
import proofs.«149900_j65755949301956_2_alg».proof.Proof.LibColumnStores
import proofs.«149900_j65755949301956_2_alg».proof.Proof.Gen.KernelIdeal.Frame
import Idealize.ShloMosaic.Lib.Tactic

set_option maxRecDepth 16384

noncomputable section

namespace Cert.SetConv.Kernel

open Idealize.ShloMosaic Idealize.ShloMosaic.TcCoe Idealize.ShloMosaic.ValueIdx Idealize.SL.Sem
open Cert.KernelIdeal Cert.KernelIdeal.Gen

variable {F : FTy → Type} [FloatOps F]

/-! ## The rectangles the body loads through lie inside their buffers -/

theorem pr0 : ∀ a, (![0, 0] : Fin 2 → Nat) a + (![1, 1024] : Fin 2 → Nat) a ≤ S1x4096.size a := Rect.inb₂ (by decide) (by decide)
theorem pr1 : ∀ a, (![0, 1024] : Fin 2 → Nat) a + (![1, 1024] : Fin 2 → Nat) a ≤ S1x4096.size a := Rect.inb₂ (by decide) (by decide)
theorem pr2 : ∀ a, (![0, 2048] : Fin 2 → Nat) a + (![1, 1024] : Fin 2 → Nat) a ≤ S1x4096.size a := Rect.inb₂ (by decide) (by decide)
theorem pr3 : ∀ a, (![0, 3072] : Fin 2 → Nat) a + (![1, 1024] : Fin 2 → Nat) a ≤ S1x4096.size a := Rect.inb₂ (by decide) (by decide)
theorem pe0 : ∀ a, (![0, 0] : Fin 2 → Nat) a + (![1024, 3] : Fin 2 → Nat) a ≤ S4096x3.size a := Rect.inb₂ (by decide) (by decide)
theorem pe1 : ∀ a, (![1024, 0] : Fin 2 → Nat) a + (![1024, 3] : Fin 2 → Nat) a ≤ S4096x3.size a := Rect.inb₂ (by decide) (by decide)
theorem pe2 : ∀ a, (![2048, 0] : Fin 2 → Nat) a + (![1024, 3] : Fin 2 → Nat) a ≤ S4096x3.size a := Rect.inb₂ (by decide) (by decide)
theorem pe3 : ∀ a, (![3072, 0] : Fin 2 → Nat) a + (![1024, 3] : Fin 2 → Nat) a ≤ S4096x3.size a := Rect.inb₂ (by decide) (by decide)

/-! ## The output block as the contents two stores leave -/

/-- The output block after the body, from the five input blocks: columns 1–2 stored last, column 0 before. -/
def blockOut (x0 : Vec F S1024x2 .f32) (x1 x2 x3 : Vec F S1x4096 .f32) (x4 : Vec F S4096x3 .bf16) : Vec F S1024x3 .f32 :=
  View.canon
    [(⟨Rect.unit (s := S1024x3) ![0, 1] ![1024, 2] inb_S1024x3_S1024x2_0_1,
        k0_pay3 (View.ld x0 (Rect.unit (s := S1024x2) ![0, 0] ![1024, 1] inb_S1024x2_S1024x1_0_0)) (View.ld x0 (Rect.unit (s := S1024x2) ![0, 1] ![1024, 1] inb_S1024x2_S1024x1_0_1)) (k0_pay4 (View.ld x0 (Rect.unit (s := S1024x2) ![0, 0] ![1024, 1] inb_S1024x2_S1024x1_0_0)) (View.ld x0 (Rect.unit (s := S1024x2) ![0, 1] ![1024, 1] inb_S1024x2_S1024x1_0_1))) (k0_pay7 (View.ld x0 (Rect.unit (s := S1024x2) ![0, 0] ![1024, 1] inb_S1024x2_S1024x1_0_0)) (View.ld x0 (Rect.unit (s := S1024x2) ![0, 1] ![1024, 1] inb_S1024x2_S1024x1_0_1)) (k0_pay4 (View.ld x0 (Rect.unit (s := S1024x2) ![0, 0] ![1024, 1] inb_S1024x2_S1024x1_0_0)) (View.ld x0 (Rect.unit (s := S1024x2) ![0, 1] ![1024, 1] inb_S1024x2_S1024x1_0_1))) (k0_pay5 (View.ld x0 (Rect.unit (s := S1024x2) ![0, 0] ![1024, 1] inb_S1024x2_S1024x1_0_0)) (View.ld x0 (Rect.unit (s := S1024x2) ![0, 1] ![1024, 1] inb_S1024x2_S1024x1_0_1)) (View.ld x1 (Rect.unit (s := S1x4096) ![0, 0] ![1, 1024] pr0)) (View.ld x2 (Rect.unit (s := S1x4096) ![0, 0] ![1, 1024] pr0)) (View.ld x3 (Rect.unit (s := S1x4096) ![0, 0] ![1, 1024] pr0)) (View.ld x4 (Rect.unit (s := S4096x3) ![0, 0] ![1024, 3] pe0))) (k0_pay6 (View.ld x1 (Rect.unit (s := S1x4096) ![0, 1024] ![1, 1024] pr1))) (View.ld x2 (Rect.unit (s := S1x4096) ![0, 1024] ![1, 1024] pr1)) (View.ld x3 (Rect.unit (s := S1x4096) ![0, 1024] ![1, 1024] pr1)) (View.ld x4 (Rect.unit (s := S4096x3) ![1024, 0] ![1024, 3] pe1))) (k0_pay8 (View.ld x0 (Rect.unit (s := S1024x2) ![0, 0] ![1024, 1] inb_S1024x2_S1024x1_0_0)) (View.ld x0 (Rect.unit (s := S1024x2) ![0, 1] ![1024, 1] inb_S1024x2_S1024x1_0_1)) (k0_pay4 (View.ld x0 (Rect.unit (s := S1024x2) ![0, 0] ![1024, 1] inb_S1024x2_S1024x1_0_0)) (View.ld x0 (Rect.unit (s := S1024x2) ![0, 1] ![1024, 1] inb_S1024x2_S1024x1_0_1))) (View.ld x1 (Rect.unit (s := S1x4096) ![0, 2048] ![1, 1024] pr2)) (View.ld x2 (Rect.unit (s := S1x4096) ![0, 2048] ![1, 1024] pr2)) (View.ld x3 (Rect.unit (s := S1x4096) ![0, 2048] ![1, 1024] pr2))) (k0_pay9 (View.ld x4 (Rect.unit (s := S4096x3) ![2048, 0] ![1024, 3] pe2))) (View.ld x1 (Rect.unit (s := S1x4096) ![0, 3072] ![1, 1024] pr3)) (View.ld x2 (Rect.unit (s := S1x4096) ![0, 3072] ![1, 1024] pr3)) (View.ld x3 (Rect.unit (s := S1x4096) ![0, 3072] ![1, 1024] pr3)) (View.ld x4 (Rect.unit (s := S4096x3) ![3072, 0] ![1024, 3] pe3))⟩ : View.Piece (Elt F) S1024x3 .f32),
     (⟨Rect.unit (s := S1024x3) ![0, 0] ![1024, 1] inb_S1024x3_S1024x1_0_0,
        k0_pay2 (View.ld x0 (Rect.unit (s := S1024x2) ![0, 0] ![1024, 1] inb_S1024x2_S1024x1_0_0)) (View.ld x0 (Rect.unit (s := S1024x2) ![0, 1] ![1024, 1] inb_S1024x2_S1024x1_0_1)) (k0_pay4 (View.ld x0 (Rect.unit (s := S1024x2) ![0, 0] ![1024, 1] inb_S1024x2_S1024x1_0_0)) (View.ld x0 (Rect.unit (s := S1024x2) ![0, 1] ![1024, 1] inb_S1024x2_S1024x1_0_1))) (k0_pay7 (View.ld x0 (Rect.unit (s := S1024x2) ![0, 0] ![1024, 1] inb_S1024x2_S1024x1_0_0)) (View.ld x0 (Rect.unit (s := S1024x2) ![0, 1] ![1024, 1] inb_S1024x2_S1024x1_0_1)) (k0_pay4 (View.ld x0 (Rect.unit (s := S1024x2) ![0, 0] ![1024, 1] inb_S1024x2_S1024x1_0_0)) (View.ld x0 (Rect.unit (s := S1024x2) ![0, 1] ![1024, 1] inb_S1024x2_S1024x1_0_1))) (k0_pay5 (View.ld x0 (Rect.unit (s := S1024x2) ![0, 0] ![1024, 1] inb_S1024x2_S1024x1_0_0)) (View.ld x0 (Rect.unit (s := S1024x2) ![0, 1] ![1024, 1] inb_S1024x2_S1024x1_0_1)) (View.ld x1 (Rect.unit (s := S1x4096) ![0, 0] ![1, 1024] pr0)) (View.ld x2 (Rect.unit (s := S1x4096) ![0, 0] ![1, 1024] pr0)) (View.ld x3 (Rect.unit (s := S1x4096) ![0, 0] ![1, 1024] pr0)) (View.ld x4 (Rect.unit (s := S4096x3) ![0, 0] ![1024, 3] pe0))) (k0_pay6 (View.ld x1 (Rect.unit (s := S1x4096) ![0, 1024] ![1, 1024] pr1))) (View.ld x2 (Rect.unit (s := S1x4096) ![0, 1024] ![1, 1024] pr1)) (View.ld x3 (Rect.unit (s := S1x4096) ![0, 1024] ![1, 1024] pr1)) (View.ld x4 (Rect.unit (s := S4096x3) ![1024, 0] ![1024, 3] pe1))) (k0_pay8 (View.ld x0 (Rect.unit (s := S1024x2) ![0, 0] ![1024, 1] inb_S1024x2_S1024x1_0_0)) (View.ld x0 (Rect.unit (s := S1024x2) ![0, 1] ![1024, 1] inb_S1024x2_S1024x1_0_1)) (k0_pay4 (View.ld x0 (Rect.unit (s := S1024x2) ![0, 0] ![1024, 1] inb_S1024x2_S1024x1_0_0)) (View.ld x0 (Rect.unit (s := S1024x2) ![0, 1] ![1024, 1] inb_S1024x2_S1024x1_0_1))) (View.ld x1 (Rect.unit (s := S1x4096) ![0, 2048] ![1, 1024] pr2)) (View.ld x2 (Rect.unit (s := S1x4096) ![0, 2048] ![1, 1024] pr2)) (View.ld x3 (Rect.unit (s := S1x4096) ![0, 2048] ![1, 1024] pr2))) (k0_pay9 (View.ld x4 (Rect.unit (s := S4096x3) ![2048, 0] ![1024, 3] pe2))) (View.ld x1 (Rect.unit (s := S1x4096) ![0, 3072] ![1, 1024] pr3)) (View.ld x2 (Rect.unit (s := S1x4096) ![0, 3072] ![1, 1024] pr3)) (View.ld x3 (Rect.unit (s := S1x4096) ![0, 3072] ![1, 1024] pr3)) (View.ld x4 (Rect.unit (s := S4096x3) ![3072, 0] ![1024, 3] pe3))⟩ : View.Piece (Elt F) S1024x3 .f32)]

/-- What the run finds in the output's staging buffer is that block, on any staging memrefs. -/
theorem out_eq (c : Dev nD) (i : grid0.Coords) (arg1 : Memref sig .tc .vmem S1024x2 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x3 .bf16) (harg5 : arg5.IsWhole) (arg6 : Memref sig .tc .vmem S1024x3 .f32) (harg6 : arg6.IsWhole)
    (x0 : Vec F S1024x2 .f32) (x1 x2 x3 : Vec F S1x4096 .f32) (x4 : Vec F S4096x3 .bf16) :
    out0_A_5 c i arg1 harg1 arg2 harg2 arg3 harg3 arg4 harg4 arg5 harg5 arg6 harg6 x0 x1 x2 x3 x4 = blockOut x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  simp only [View.readAt_eq_ld, harg1.read_unread, harg2.read_unread, harg3.read_unread, harg4.read_unread, harg5.read_unread]
  rfl

/-! ## The block read at an entry, on the extended reals -/

/-- φ(r, c): the block's weights against column c of E, one sum over the 4096 context points. -/
def blockPhi (x0 : FVec Ideal S1024x2 .f32) (x1 x2 x3 : FVec Ideal S1x4096 .f32) (x4 : FVec Ideal S4096x3 .bf16)
    (r : Fin 1024) (c : Fin 3) : EReal :=
  ∑ j : Fin 4096, wBlock x0 x1 x2 x3 r j * x4 (ix2 j c)

/-- The accumulated features over the body's own loads are φ. -/
theorem pay1_ld (x0 : FVec Ideal S1024x2 .f32) (x1 x2 x3 : FVec Ideal S1x4096 .f32) (x4 : FVec Ideal S4096x3 .bf16)
    (r : Fin 1024) (c : Fin 3) :
    k0_pay1 (F := Ideal) (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay7 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay5 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (View.ld (Val := Elt Ideal) (e' := .f32) x1 (Rect.unit (s := S1x4096) ![0, 0] ![1, 1024] pr0)) (View.ld (Val := Elt Ideal) (e' := .f32) x2 (Rect.unit (s := S1x4096) ![0, 0] ![1, 1024] pr0)) (View.ld (Val := Elt Ideal) (e' := .f32) x3 (Rect.unit (s := S1x4096) ![0, 0] ![1, 1024] pr0)) (View.ld (Val := Elt Ideal) (e' := .bf16) x4 (Rect.unit (s := S4096x3) ![0, 0] ![1024, 3] pe0))) (k0_pay6 (View.ld (Val := Elt Ideal) (e' := .f32) x1 (Rect.unit (s := S1x4096) ![0, 1024] ![1, 1024] pr1))) (View.ld (Val := Elt Ideal) (e' := .f32) x2 (Rect.unit (s := S1x4096) ![0, 1024] ![1, 1024] pr1)) (View.ld (Val := Elt Ideal) (e' := .f32) x3 (Rect.unit (s := S1x4096) ![0, 1024] ![1, 1024] pr1)) (View.ld (Val := Elt Ideal) (e' := .bf16) x4 (Rect.unit (s := S4096x3) ![1024, 0] ![1024, 3] pe1))) (k0_pay8 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (View.ld (Val := Elt Ideal) (e' := .f32) x1 (Rect.unit (s := S1x4096) ![0, 2048] ![1, 1024] pr2)) (View.ld (Val := Elt Ideal) (e' := .f32) x2 (Rect.unit (s := S1x4096) ![0, 2048] ![1, 1024] pr2)) (View.ld (Val := Elt Ideal) (e' := .f32) x3 (Rect.unit (s := S1x4096) ![0, 2048] ![1, 1024] pr2))) (k0_pay9 (View.ld (Val := Elt Ideal) (e' := .bf16) x4 (Rect.unit (s := S4096x3) ![2048, 0] ![1024, 3] pe2))) (View.ld (Val := Elt Ideal) (e' := .f32) x1 (Rect.unit (s := S1x4096) ![0, 3072] ![1, 1024] pr3)) (View.ld (Val := Elt Ideal) (e' := .f32) x2 (Rect.unit (s := S1x4096) ![0, 3072] ![1, 1024] pr3)) (View.ld (Val := Elt Ideal) (e' := .f32) x3 (Rect.unit (s := S1x4096) ![0, 3072] ![1, 1024] pr3)) (View.ld (Val := Elt Ideal) (e' := .bf16) x4 (Rect.unit (s := S4096x3) ![3072, 0] ![1024, 3] pe3)) (ix2 r c) = blockPhi x0 x1 x2 x3 x4 r c :=
  (congrFun (pay1_eq (F := Ideal) (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (View.ld (Val := Elt Ideal) (e' := .f32) x1 (Rect.unit (s := S1x4096) ![0, 0] ![1, 1024] pr0)) (View.ld (Val := Elt Ideal) (e' := .f32) x2 (Rect.unit (s := S1x4096) ![0, 0] ![1, 1024] pr0)) (View.ld (Val := Elt Ideal) (e' := .f32) x3 (Rect.unit (s := S1x4096) ![0, 0] ![1, 1024] pr0)) (View.ld (Val := Elt Ideal) (e' := .f32) x1 (Rect.unit (s := S1x4096) ![0, 1024] ![1, 1024] pr1)) (View.ld (Val := Elt Ideal) (e' := .f32) x2 (Rect.unit (s := S1x4096) ![0, 1024] ![1, 1024] pr1)) (View.ld (Val := Elt Ideal) (e' := .f32) x3 (Rect.unit (s := S1x4096) ![0, 1024] ![1, 1024] pr1)) (View.ld (Val := Elt Ideal) (e' := .f32) x1 (Rect.unit (s := S1x4096) ![0, 2048] ![1, 1024] pr2)) (View.ld (Val := Elt Ideal) (e' := .f32) x2 (Rect.unit (s := S1x4096) ![0, 2048] ![1, 1024] pr2)) (View.ld (Val := Elt Ideal) (e' := .f32) x3 (Rect.unit (s := S1x4096) ![0, 2048] ![1, 1024] pr2)) (View.ld (Val := Elt Ideal) (e' := .f32) x1 (Rect.unit (s := S1x4096) ![0, 3072] ![1, 1024] pr3)) (View.ld (Val := Elt Ideal) (e' := .f32) x2 (Rect.unit (s := S1x4096) ![0, 3072] ![1, 1024] pr3)) (View.ld (Val := Elt Ideal) (e' := .f32) x3 (Rect.unit (s := S1x4096) ![0, 3072] ![1, 1024] pr3)) (View.ld (Val := Elt Ideal) (e' := .bf16) x4 (Rect.unit (s := S4096x3) ![0, 0] ![1024, 3] pe0)) (View.ld (Val := Elt Ideal) (e' := .bf16) x4 (Rect.unit (s := S4096x3) ![1024, 0] ![1024, 3] pe1)) (View.ld (Val := Elt Ideal) (e' := .bf16) x4 (Rect.unit (s := S4096x3) ![2048, 0] ![1024, 3] pe2)) (View.ld (Val := Elt Ideal) (e' := .bf16) x4 (Rect.unit (s := S4096x3) ![3072, 0] ![1024, 3] pe3))) (ix2 r c)).trans
    (blockFeat_ld x0 x1 x2 x3 x4 inb_S1024x2_S1024x1_0_0 inb_S1024x2_S1024x1_0_1 pr0 pr1 pr2 pr3 pe0 pe1 pe2 pe3 r c)

/-- Two column stores of a density column and of two channels over the density: entry (r, c) of the block. -/
theorem two_stores_apply (P : FVec Ideal S1024x3 .f32) (w12 : FVec Ideal S1024x2 .f32) (w0 : FVec Ideal S1024x1 .f32)
    (hw0 : ∀ r : Fin 1024, w0 (ix2 r (0 : Fin 1)) = P (ix2 r (0 : Fin 3)))
    (hw12 : ∀ (r : Fin 1024) (c' : Fin 2), w12 (ix2 r c')
      = Ideal.div (P (ix2 r (⟨1 + c'.val, by have := c'.isLt; omega⟩ : Fin 3))) (P (ix2 r (0 : Fin 3))))
    (r : Fin 1024) (c : Fin 3) :
    View.canon
      [(⟨Rect.unit (s := S1024x3) ![0, 1] ![1024, 2] inb_S1024x3_S1024x2_0_1, w12⟩ : View.Piece (Elt Ideal) S1024x3 .f32),
       (⟨Rect.unit (s := S1024x3) ![0, 0] ![1024, 1] inb_S1024x3_S1024x1_0_0, w0⟩ : View.Piece (Elt Ideal) S1024x3 .f32)] (ix2 r c)
      = if c.val = 0 then P (ix2 r (0 : Fin 3)) else Ideal.div (P (ix2 r c)) (P (ix2 r (0 : Fin 3))) := by
  match c with
  | ⟨0, _⟩ =>
    rw [if_pos rfl]
    exact (Cert.LibColumnStores.canon_col0 (Val := Elt Ideal) (e := .f32) (n := 1024) w12 w0
      inb_S1024x3_S1024x2_0_1 inb_S1024x3_S1024x1_0_0 r).trans (hw0 r)
  | ⟨1, _⟩ =>
    rw [if_neg (show ¬ (1 : ℕ) = 0 by decide)]
    exact (Cert.LibColumnStores.canon_cols12 (Val := Elt Ideal) (e := .f32) (n := 1024) w12 w0
      inb_S1024x3_S1024x2_0_1 inb_S1024x3_S1024x1_0_0 r (0 : Fin 2)).trans (hw12 r 0)
  | ⟨2, _⟩ =>
    rw [if_neg (show ¬ (2 : ℕ) = 0 by decide)]
    exact (Cert.LibColumnStores.canon_cols12 (Val := Elt Ideal) (e := .f32) (n := 1024) w12 w0
      inb_S1024x3_S1024x2_0_1 inb_S1024x3_S1024x1_0_0 r (1 : Fin 2)).trans (hw12 r 1)

/-- Entry (r, c) of the output block: the density at c = 0, the channel over the density otherwise. -/
theorem blockOut_apply (x0 : FVec Ideal S1024x2 .f32) (x1 x2 x3 : FVec Ideal S1x4096 .f32) (x4 : FVec Ideal S4096x3 .bf16)
    (r : Fin 1024) (c : Fin 3) :
    blockOut (F := Ideal) x0 x1 x2 x3 x4 (ix2 r c)
      = if c.val = 0 then blockPhi x0 x1 x2 x3 x4 r 0
        else Ideal.div (blockPhi x0 x1 x2 x3 x4 r c) (blockPhi x0 x1 x2 x3 x4 r 0) := by
  have h := two_stores_apply (k0_pay1 (F := Ideal) (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay7 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay5 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (View.ld (Val := Elt Ideal) (e' := .f32) x1 (Rect.unit (s := S1x4096) ![0, 0] ![1, 1024] pr0)) (View.ld (Val := Elt Ideal) (e' := .f32) x2 (Rect.unit (s := S1x4096) ![0, 0] ![1, 1024] pr0)) (View.ld (Val := Elt Ideal) (e' := .f32) x3 (Rect.unit (s := S1x4096) ![0, 0] ![1, 1024] pr0)) (View.ld (Val := Elt Ideal) (e' := .bf16) x4 (Rect.unit (s := S4096x3) ![0, 0] ![1024, 3] pe0))) (k0_pay6 (View.ld (Val := Elt Ideal) (e' := .f32) x1 (Rect.unit (s := S1x4096) ![0, 1024] ![1, 1024] pr1))) (View.ld (Val := Elt Ideal) (e' := .f32) x2 (Rect.unit (s := S1x4096) ![0, 1024] ![1, 1024] pr1)) (View.ld (Val := Elt Ideal) (e' := .f32) x3 (Rect.unit (s := S1x4096) ![0, 1024] ![1, 1024] pr1)) (View.ld (Val := Elt Ideal) (e' := .bf16) x4 (Rect.unit (s := S4096x3) ![1024, 0] ![1024, 3] pe1))) (k0_pay8 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (View.ld (Val := Elt Ideal) (e' := .f32) x1 (Rect.unit (s := S1x4096) ![0, 2048] ![1, 1024] pr2)) (View.ld (Val := Elt Ideal) (e' := .f32) x2 (Rect.unit (s := S1x4096) ![0, 2048] ![1, 1024] pr2)) (View.ld (Val := Elt Ideal) (e' := .f32) x3 (Rect.unit (s := S1x4096) ![0, 2048] ![1, 1024] pr2))) (k0_pay9 (View.ld (Val := Elt Ideal) (e' := .bf16) x4 (Rect.unit (s := S4096x3) ![2048, 0] ![1024, 3] pe2))) (View.ld (Val := Elt Ideal) (e' := .f32) x1 (Rect.unit (s := S1x4096) ![0, 3072] ![1, 1024] pr3)) (View.ld (Val := Elt Ideal) (e' := .f32) x2 (Rect.unit (s := S1x4096) ![0, 3072] ![1, 1024] pr3)) (View.ld (Val := Elt Ideal) (e' := .f32) x3 (Rect.unit (s := S1x4096) ![0, 3072] ![1, 1024] pr3)) (View.ld (Val := Elt Ideal) (e' := .bf16) x4 (Rect.unit (s := S4096x3) ![3072, 0] ![1024, 3] pe3))) (k0_pay3 (F := Ideal) (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay7 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay5 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (View.ld (Val := Elt Ideal) (e' := .f32) x1 (Rect.unit (s := S1x4096) ![0, 0] ![1, 1024] pr0)) (View.ld (Val := Elt Ideal) (e' := .f32) x2 (Rect.unit (s := S1x4096) ![0, 0] ![1, 1024] pr0)) (View.ld (Val := Elt Ideal) (e' := .f32) x3 (Rect.unit (s := S1x4096) ![0, 0] ![1, 1024] pr0)) (View.ld (Val := Elt Ideal) (e' := .bf16) x4 (Rect.unit (s := S4096x3) ![0, 0] ![1024, 3] pe0))) (k0_pay6 (View.ld (Val := Elt Ideal) (e' := .f32) x1 (Rect.unit (s := S1x4096) ![0, 1024] ![1, 1024] pr1))) (View.ld (Val := Elt Ideal) (e' := .f32) x2 (Rect.unit (s := S1x4096) ![0, 1024] ![1, 1024] pr1)) (View.ld (Val := Elt Ideal) (e' := .f32) x3 (Rect.unit (s := S1x4096) ![0, 1024] ![1, 1024] pr1)) (View.ld (Val := Elt Ideal) (e' := .bf16) x4 (Rect.unit (s := S4096x3) ![1024, 0] ![1024, 3] pe1))) (k0_pay8 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (View.ld (Val := Elt Ideal) (e' := .f32) x1 (Rect.unit (s := S1x4096) ![0, 2048] ![1, 1024] pr2)) (View.ld (Val := Elt Ideal) (e' := .f32) x2 (Rect.unit (s := S1x4096) ![0, 2048] ![1, 1024] pr2)) (View.ld (Val := Elt Ideal) (e' := .f32) x3 (Rect.unit (s := S1x4096) ![0, 2048] ![1, 1024] pr2))) (k0_pay9 (View.ld (Val := Elt Ideal) (e' := .bf16) x4 (Rect.unit (s := S4096x3) ![2048, 0] ![1024, 3] pe2))) (View.ld (Val := Elt Ideal) (e' := .f32) x1 (Rect.unit (s := S1x4096) ![0, 3072] ![1, 1024] pr3)) (View.ld (Val := Elt Ideal) (e' := .f32) x2 (Rect.unit (s := S1x4096) ![0, 3072] ![1, 1024] pr3)) (View.ld (Val := Elt Ideal) (e' := .f32) x3 (Rect.unit (s := S1x4096) ![0, 3072] ![1, 1024] pr3)) (View.ld (Val := Elt Ideal) (e' := .bf16) x4 (Rect.unit (s := S4096x3) ![3072, 0] ![1024, 3] pe3)))
    (k0_pay2 (F := Ideal) (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay7 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay5 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (View.ld (Val := Elt Ideal) (e' := .f32) x1 (Rect.unit (s := S1x4096) ![0, 0] ![1, 1024] pr0)) (View.ld (Val := Elt Ideal) (e' := .f32) x2 (Rect.unit (s := S1x4096) ![0, 0] ![1, 1024] pr0)) (View.ld (Val := Elt Ideal) (e' := .f32) x3 (Rect.unit (s := S1x4096) ![0, 0] ![1, 1024] pr0)) (View.ld (Val := Elt Ideal) (e' := .bf16) x4 (Rect.unit (s := S4096x3) ![0, 0] ![1024, 3] pe0))) (k0_pay6 (View.ld (Val := Elt Ideal) (e' := .f32) x1 (Rect.unit (s := S1x4096) ![0, 1024] ![1, 1024] pr1))) (View.ld (Val := Elt Ideal) (e' := .f32) x2 (Rect.unit (s := S1x4096) ![0, 1024] ![1, 1024] pr1)) (View.ld (Val := Elt Ideal) (e' := .f32) x3 (Rect.unit (s := S1x4096) ![0, 1024] ![1, 1024] pr1)) (View.ld (Val := Elt Ideal) (e' := .bf16) x4 (Rect.unit (s := S4096x3) ![1024, 0] ![1024, 3] pe1))) (k0_pay8 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (View.ld (Val := Elt Ideal) (e' := .f32) x1 (Rect.unit (s := S1x4096) ![0, 2048] ![1, 1024] pr2)) (View.ld (Val := Elt Ideal) (e' := .f32) x2 (Rect.unit (s := S1x4096) ![0, 2048] ![1, 1024] pr2)) (View.ld (Val := Elt Ideal) (e' := .f32) x3 (Rect.unit (s := S1x4096) ![0, 2048] ![1, 1024] pr2))) (k0_pay9 (View.ld (Val := Elt Ideal) (e' := .bf16) x4 (Rect.unit (s := S4096x3) ![2048, 0] ![1024, 3] pe2))) (View.ld (Val := Elt Ideal) (e' := .f32) x1 (Rect.unit (s := S1x4096) ![0, 3072] ![1, 1024] pr3)) (View.ld (Val := Elt Ideal) (e' := .f32) x2 (Rect.unit (s := S1x4096) ![0, 3072] ![1, 1024] pr3)) (View.ld (Val := Elt Ideal) (e' := .f32) x3 (Rect.unit (s := S1x4096) ![0, 3072] ![1, 1024] pr3)) (View.ld (Val := Elt Ideal) (e' := .bf16) x4 (Rect.unit (s := S4096x3) ![3072, 0] ![1024, 3] pe3)))
    (pay2_apply (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay7 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay5 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (View.ld (Val := Elt Ideal) (e' := .f32) x1 (Rect.unit (s := S1x4096) ![0, 0] ![1, 1024] pr0)) (View.ld (Val := Elt Ideal) (e' := .f32) x2 (Rect.unit (s := S1x4096) ![0, 0] ![1, 1024] pr0)) (View.ld (Val := Elt Ideal) (e' := .f32) x3 (Rect.unit (s := S1x4096) ![0, 0] ![1, 1024] pr0)) (View.ld (Val := Elt Ideal) (e' := .bf16) x4 (Rect.unit (s := S4096x3) ![0, 0] ![1024, 3] pe0))) (k0_pay6 (View.ld (Val := Elt Ideal) (e' := .f32) x1 (Rect.unit (s := S1x4096) ![0, 1024] ![1, 1024] pr1))) (View.ld (Val := Elt Ideal) (e' := .f32) x2 (Rect.unit (s := S1x4096) ![0, 1024] ![1, 1024] pr1)) (View.ld (Val := Elt Ideal) (e' := .f32) x3 (Rect.unit (s := S1x4096) ![0, 1024] ![1, 1024] pr1)) (View.ld (Val := Elt Ideal) (e' := .bf16) x4 (Rect.unit (s := S4096x3) ![1024, 0] ![1024, 3] pe1))) (k0_pay8 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (View.ld (Val := Elt Ideal) (e' := .f32) x1 (Rect.unit (s := S1x4096) ![0, 2048] ![1, 1024] pr2)) (View.ld (Val := Elt Ideal) (e' := .f32) x2 (Rect.unit (s := S1x4096) ![0, 2048] ![1, 1024] pr2)) (View.ld (Val := Elt Ideal) (e' := .f32) x3 (Rect.unit (s := S1x4096) ![0, 2048] ![1, 1024] pr2))) (k0_pay9 (View.ld (Val := Elt Ideal) (e' := .bf16) x4 (Rect.unit (s := S4096x3) ![2048, 0] ![1024, 3] pe2))) (View.ld (Val := Elt Ideal) (e' := .f32) x1 (Rect.unit (s := S1x4096) ![0, 3072] ![1, 1024] pr3)) (View.ld (Val := Elt Ideal) (e' := .f32) x2 (Rect.unit (s := S1x4096) ![0, 3072] ![1, 1024] pr3)) (View.ld (Val := Elt Ideal) (e' := .f32) x3 (Rect.unit (s := S1x4096) ![0, 3072] ![1, 1024] pr3)) (View.ld (Val := Elt Ideal) (e' := .bf16) x4 (Rect.unit (s := S4096x3) ![3072, 0] ![1024, 3] pe3)))
    (pay3_apply (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay7 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (k0_pay5 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (View.ld (Val := Elt Ideal) (e' := .f32) x1 (Rect.unit (s := S1x4096) ![0, 0] ![1, 1024] pr0)) (View.ld (Val := Elt Ideal) (e' := .f32) x2 (Rect.unit (s := S1x4096) ![0, 0] ![1, 1024] pr0)) (View.ld (Val := Elt Ideal) (e' := .f32) x3 (Rect.unit (s := S1x4096) ![0, 0] ![1, 1024] pr0)) (View.ld (Val := Elt Ideal) (e' := .bf16) x4 (Rect.unit (s := S4096x3) ![0, 0] ![1024, 3] pe0))) (k0_pay6 (View.ld (Val := Elt Ideal) (e' := .f32) x1 (Rect.unit (s := S1x4096) ![0, 1024] ![1, 1024] pr1))) (View.ld (Val := Elt Ideal) (e' := .f32) x2 (Rect.unit (s := S1x4096) ![0, 1024] ![1, 1024] pr1)) (View.ld (Val := Elt Ideal) (e' := .f32) x3 (Rect.unit (s := S1x4096) ![0, 1024] ![1, 1024] pr1)) (View.ld (Val := Elt Ideal) (e' := .bf16) x4 (Rect.unit (s := S4096x3) ![1024, 0] ![1024, 3] pe1))) (k0_pay8 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1)) (k0_pay4 (View.ld (Val := Elt Ideal) (e' := .f32) x0 (Rect.unit (s := S1024x2) ![0, 0] ![1024, 1] inb_S1024x2_S1024x1_0_0)) (View.ld (Val := Elt Ideal) (e' := .f32) x0 (Rect.unit (s := S1024x2) ![0, 1] ![1024, 1] inb_S1024x2_S1024x1_0_1))) (View.ld (Val := Elt Ideal) (e' := .f32) x1 (Rect.unit (s := S1x4096) ![0, 2048] ![1, 1024] pr2)) (View.ld (Val := Elt Ideal) (e' := .f32) x2 (Rect.unit (s := S1x4096) ![0, 2048] ![1, 1024] pr2)) (View.ld (Val := Elt Ideal) (e' := .f32) x3 (Rect.unit (s := S1x4096) ![0, 2048] ![1, 1024] pr2))) (k0_pay9 (View.ld (Val := Elt Ideal) (e' := .bf16) x4 (Rect.unit (s := S4096x3) ![2048, 0] ![1024, 3] pe2))) (View.ld (Val := Elt Ideal) (e' := .f32) x1 (Rect.unit (s := S1x4096) ![0, 3072] ![1, 1024] pr3)) (View.ld (Val := Elt Ideal) (e' := .f32) x2 (Rect.unit (s := S1x4096) ![0, 3072] ![1, 1024] pr3)) (View.ld (Val := Elt Ideal) (e' := .f32) x3 (Rect.unit (s := S1x4096) ![0, 3072] ![1, 1024] pr3)) (View.ld (Val := Elt Ideal) (e' := .bf16) x4 (Rect.unit (s := S4096x3) ![3072, 0] ![1024, 3] pe3))) r c
  rw [pay1_ld x0 x1 x2 x3 x4 r c, pay1_ld x0 x1 x2 x3 x4 r 0] at h
  exact h

/-! ## A block whose inputs are rows of the argument arrays is a row block of the feature map -/

/-- If the grid block holds rows T·1024 … of the grid, the three resident rows hold x₀, x₁, −½‖x‖² of the context points and
    the fourth resident block holds E, then entry (r, c) of the output block is entry (T·1024 + r, c) of the
    normalised feature map. -/
theorem blockOut_featureMap (X : Cert.SetConv.SPts.Idx → EReal) (g : Cert.SetConv.SGrid.Idx → EReal)
    (E : Cert.SetConv.SOnesY.Idx → EReal)
    (x0 : FVec Ideal S1024x2 .f32) (x1 x2 x3 : FVec Ideal S1x4096 .f32) (x4 : FVec Ideal S4096x3 .bf16)
    (T : Nat) (hT : T < 64)
    (h0 : ∀ (r : Fin 1024) (a : Fin 2), x0 (ix2 r a) = g (ix2 (⟨T * 1024 + r.val, by have := r.isLt; omega⟩ : Fin 65536) a))
    (h1 : ∀ j : Fin 4096, x1 (ix2 (0 : Fin 1) j) = Cert.SetConv.x0row X j)
    (h2 : ∀ j : Fin 4096, x2 (ix2 (0 : Fin 1) j) = Cert.SetConv.x1row X j)
    (h3 : ∀ j : Fin 4096, x3 (ix2 (0 : Fin 1) j) = Cert.SetConv.xsqh X j)
    (h4 : ∀ (j : Fin 4096) (c : Fin 3), x4 (ix2 j c) = E (ix2 j c))
    (r : Fin 1024) (c : Fin 3) :
    blockOut (F := Ideal) x0 x1 x2 x3 x4 (ix2 r c)
      = Cert.SetConv.featureMap (Cert.SetConv.gram X g) E (ix2 (⟨T * 1024 + r.val, by have := r.isLt; omega⟩ : Fin 65536) c) := by
  have hΦ : ∀ c' : Fin 3, blockPhi x0 x1 x2 x3 x4 r c'
      = Cert.SetConv.feat (Cert.SetConv.gram X g) E (⟨T * 1024 + r.val, by have := r.isLt; omega⟩ : Fin 65536) c' := fun c' => by
    unfold blockPhi Cert.SetConv.feat
    refine Finset.sum_congr rfl fun j _ => ?_
    unfold wBlock Cert.SetConv.gram Cert.SetConv.expArg Cert.SetConv.gsqh
    rw [h0 r 0, h0 r 1, h1 j, h2 j, h3 j, h4 j c']
  rw [blockOut_apply, Cert.SetConv.featureMap_ix2]
  unfold Cert.SetConv.outEntry
  rw [hΦ c, hΦ 0]

end Cert.SetConv.Kernel

end
-- ==== Proof.KernelCover.lean ====
/-
  The output window's 64 blocks of 1024 rows cover the 65536 × 3 array: row r lies in the block of point r / 1024.
-/
import proofs.«149900_j65755949301956_2_alg».proof.Proof.Gen.KernelIdeal.Frame
import Idealize.ShloMosaic.Lib.Pipeline.Value
import Idealize.ShloMosaic.Lib.ValueIdx

noncomputable section

namespace Cert.SetConv.Cover

open Idealize.ShloMosaic Idealize.ShloMosaic.TcCoe Idealize.ShloMosaic.ValueIdx Idealize.SL.Sem
open Cert.KernelIdeal Cert.KernelIdeal.Gen

/-- The output window's index map, decided over the grid: point t writes block row t, block column 0. -/
theorem idx5 : ∀ t : Fin cfg0.N, win0_5.index t (0 : Fin 2) = t.val ∧ win0_5.index t (1 : Fin 2) = 0 :=
  (by decide +kernel : ∀ t : Fin grid0.N, _)

/-- An index of the array is in point `t`'s block iff each coordinate is in the block's range on its axis. -/
theorem mem_blk5 (t : Fin cfg0.N) (i : S65536x3.Idx) :
    i ∈ ((cfg0.win 5).blk t).view.set ↔ ∀ a : Fin 2, win0_5.index t a * S1024x3.size a ≤ (i a).val
      ∧ (i a).val < win0_5.index t a * S1024x3.size a + S1024x3.size a := by
  show i ∈ ((View.whole main_v18).slice (win0_5.rect t)).set ↔ _
  rw [View.set_slice_whole, Rect.mem_set_unit]
  exact Iff.rfl

/-- Every index of the array lies in the block some point writes back: the point is row / 1024. -/
theorem cover5 (i : S65536x3.Idx) :
    ∃ t : Fin cfg0.N, (cfg0.win 5).flush t = true ∧ i ∈ ((cfg0.win 5).blk t).view.set := by
  have hi0 : (i 0).val < 65536 := (i 0).isLt
  have hi1 : (i 1).val < 3 := (i 1).isLt
  have hN : cfg0.N = 64 := N_0
  let t : Fin cfg0.N := ⟨(i 0).val / 1024, by rw [hN]; omega⟩
  obtain ⟨e0, e1⟩ := idx5 t
  have et : t.val = (i 0).val / 1024 := rfl
  refine ⟨t, flush0_5 t, ?_⟩
  rw [mem_blk5]
  intro a
  match a with
  | ⟨0, _⟩ =>
    show win0_5.index t (0 : Fin 2) * 1024 ≤ (i 0).val ∧ (i 0).val < win0_5.index t (0 : Fin 2) * 1024 + 1024
    rw [e0, et]; omega
  | ⟨1, _⟩ =>
    show win0_5.index t (1 : Fin 2) * 3 ≤ (i 1).val ∧ (i 1).val < win0_5.index t (1 : Fin 2) * 3 + 3
    rw [e1]; omega

end Cert.SetConv.Cover

end
-- ==== Proof.KernelTail.lean ====
/-
  The kernel's three host operations after the region — rows split 256 × 256, the axes reversed, a unit axis in
  front — are the output layout applied to the array the region leaves.
-/
import proofs.«149900_j65755949301956_2_alg».proof.Proof.Spec
import proofs.«149900_j65755949301956_2_alg».proof.Proof.Gen.KernelIdeal.Frame
import proofs.«149900_j65755949301956_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.SetConv.Tail

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The value of the kernel's last host operation is the layout of the region's output array. -/
theorem tail_eq (dats : (p : Fin 1) → (c : Dev nD) → Pipeline.Dat τ (Elt Ideal) Unit ℕ (UR sig nD τ) ℕ (cfgs p) c) (c : Dev nD) :
    (Pipeline.afterTail₀ cfgs dats 0 (V0 m) [hostOps1] c main_v21 : Cert.SetConv.SOut.Idx → EReal)
      = Cert.SetConv.layout shapeCasts_S65536x3_S256x256x3 transposes_S256x256x3_S3x256x256_2_1_0
          bcast_S3x256x256_S1x3x256x256_1_2_3 (((dats 0 c).arrAt 5 cfg0.N) : Cert.SetConv.SFeat.Idx → EReal) := by
  unfold Pipeline.afterTail₀
  show StableHlo.after hostOps1 _ (Proc.devRef .tc main_v21) = _
  after_results
  have e : (Pipeline.withArrays (cfgs 0).spec c (V0 m c) (fun w => (dats 0 c).arrAt w (cfgs 0).N)
      (Proc.devRef .tc main_v18) : S65536x3.Idx → EReal) = (dats 0 c).arrAt 5 cfg0.N :=
    Pipeline.withArrays_arr spec0 launch0.win.arr_inj c _ _ 5
  exact congrArg (fun A : S65536x3.Idx → EReal => Cert.SetConv.layout shapeCasts_S65536x3_S256x256x3
    transposes_S256x256x3_S3x256x256_2_1_0 bcast_S3x256x256_S1x3x256x256_1_2_3 A) e

end Cert.SetConv.Tail

end
-- ==== Proof.KernelArray.lean ====
/-
  From row blocks to the whole array: the kernel's output array is the normalised feature map.

  Grid point t of the launch (64 of them) works on rows 1024 t … 1024 t + 1023 of the grid: its grid block is those rows,
  the three context rows and E are the same whole arrays at every point, and the output block it writes back is rows
  1024 t … of the output array. Each block written back is the matching row block of the feature map, and the 64 blocks
  cover the 65536 rows, so the array after the launch is the feature map.
-/
import proofs.«149900_j65755949301956_2_alg».proof.Proof.KernelBlock
import proofs.«149900_j65755949301956_2_alg».proof.Proof.KernelPrefix
import proofs.«149900_j65755949301956_2_alg».proof.Proof.KernelCover
import proofs.«149900_j65755949301956_2_alg».proof.Proof.KernelTail
import Idealize.ShloMosaic.Lib.Pipeline.Value

set_option maxRecDepth 16384

noncomputable section

namespace Cert.SetConv.Kernel

open Idealize.ShloMosaic Idealize.ShloMosaic.TcCoe Idealize.ShloMosaic.ValueIdx Idealize.SL.Sem
open Idealize.ShloMosaic.Pipeline (Dat)
open Cert.KernelIdeal Cert.KernelIdeal.Gen

/-- A function on a 1024 × 3 block that agrees, entry by entry, with rows T·1024 … of a 65536 × 3 array is that array
    read through the block's placement (row T·1024 + r, column c). -/
theorem rows_block_ext (f : (⟨2, ![1024, 3]⟩ : Shape).Idx → EReal) (G : (⟨2, ![65536, 3]⟩ : Shape).Idx → EReal)
    (T : Nat) (hT : T < 64) (emb : (⟨2, ![1024, 3]⟩ : Shape).Idx → (⟨2, ![65536, 3]⟩ : Shape).Idx)
    (hemb0 : ∀ y, (emb y 0).val = T * 1024 + 1 * (y 0).val) (hemb1 : ∀ y, (emb y 1).val = 0 * 3 + 1 * (y 1).val)
    (h : ∀ (r : Fin 1024) (c : Fin 3), f (ix2 r c) = G (ix2 (⟨T * 1024 + r.val, by have := r.isLt; omega⟩ : Fin 65536) c)) :
    f = fun y => G (emb y) := by
  funext y
  obtain ⟨r, c, rfl⟩ : ∃ (r : Fin 1024) (c : Fin 3), y = ix2 r c := ⟨y 0, y 1, eq_ix2 y⟩
  rw [h r c]
  refine congrArg G (funext fun a => Fin.ext ?_)
  match a with
  | ⟨0, _⟩ => exact ((hemb0 (ix2 r c)).trans (by show T * 1024 + 1 * r.val = T * 1024 + r.val; omega)).symm
  | ⟨1, _⟩ => exact ((hemb1 (ix2 r c)).trans (by show 0 * 3 + 1 * c.val = c.val; omega)).symm

variable (m : (ℓ : Loc nD τ sig) → Buf (Elt Ideal) ℓ) (ρ : Dev nD → PrngReg)

/-- The printed index maps, decided once over the 64 grid points: the grid and output windows move with the point along
    the rows, the four resident windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := by
  have h1 := t.isLt
  have h2 : cfg0.N = 64 := N_0
  omega

/-- The grid block at point t is rows 1024 t … of the grid. -/
theorem iblk0_apply (c : Dev nD) (t : Fin cfg0.N) (r : Fin 1024) (a : Fin 2) :
    iblk m c 0 t (ix2 r a)
      = (m ((c : Thread nD τ).loc main_arg2)) (ix2 (⟨t.val * 1024 + r.val, by have := r.isLt; have := point_lt t; omega⟩ : Fin 65536) a) := by
  obtain ⟨e00, e01, -⟩ := idx_facts t
  show V m c main_arg2 (((cfg0.win 0).blk t).view.emb (ix2 r a)) = _
  rw [V_main_arg2]
  refine congrArg _ (funext fun ax => Fin.ext ?_)
  match ax with
  | ⟨0, _⟩ => show win0_0.index t (0 : Fin 2) * 1024 + 1 * r.val = t.val * 1024 + r.val; rw [e00]; omega
  | ⟨1, _⟩ => show win0_0.index t (1 : Fin 2) * 2 + 1 * a.val = a.val; rw [e01]; omega

/-- The three resident rows, at every point, are the whole rows x₀, x₁ and −½‖x‖² of the context points, -/
theorem iblk1_apply (c : Dev nD) (t : Fin cfg0.N) (j : Fin 4096) :
    iblk m c 1 t (ix2 (0 : Fin 1) j) = Cert.SetConv.x0row (m ((c : Thread nD τ).loc main_arg0)) j := by
  obtain ⟨-, -, e0, e1, -⟩ := idx_facts t
  show V m c main_v4 (((cfg0.win 1).blk t).view.emb (ix2 (0 : Fin 1) j)) = _
  have he : ((cfg0.win 1).blk t).view.emb (ix2 (0 : Fin 1) j) = ix2 (0 : Fin 1) j := funext fun ax => Fin.ext (by
    match ax with
    | ⟨0, _⟩ => show win0_1.index t (0 : Fin 2) * 1 + 1 * 0 = 0; rw [e0]
    | ⟨1, _⟩ => show win0_1.index t (1 : Fin 2) * 4096 + 1 * j.val = j.val; rw [e1]; omega)
  rw [he]
  exact Cert.SetConv.Prefix.v4_apply m c j

theorem iblk2_apply (c : Dev nD) (t : Fin cfg0.N) (j : Fin 4096) :
    iblk m c 2 t (ix2 (0 : Fin 1) j) = Cert.SetConv.x1row (m ((c : Thread nD τ).loc main_arg0)) j := by
  obtain ⟨-, -, -, -, e0, e1, -⟩ := idx_facts t
  show V m c main_v9 (((cfg0.win 2).blk t).view.emb (ix2 (0 : Fin 1) j)) = _
  have he : ((cfg0.win 2).blk t).view.emb (ix2 (0 : Fin 1) j) = ix2 (0 : Fin 1) j := funext fun ax => Fin.ext (by
    match ax with
    | ⟨0, _⟩ => show win0_2.index t (0 : Fin 2) * 1 + 1 * 0 = 0; rw [e0]
    | ⟨1, _⟩ => show win0_2.index t (1 : Fin 2) * 4096 + 1 * j.val = j.val; rw [e1]; omega)
  rw [he]
  exact Cert.SetConv.Prefix.v9_apply m c j

theorem iblk3_apply (c : Dev nD) (t : Fin cfg0.N) (j : Fin 4096) :
    iblk m c 3 t (ix2 (0 : Fin 1) j) = Cert.SetConv.xsqh (m ((c : Thread nD τ).loc main_arg0)) j := by
  obtain ⟨-, -, -, -, -, -, e0, e1, -⟩ := idx_facts t
  show V m c main_v14 (((cfg0.win 3).blk t).view.emb (ix2 (0 : Fin 1) j)) = _
  have he : ((cfg0.win 3).blk t).view.emb (ix2 (0 : Fin 1) j) = ix2 (0 : Fin 1) j := funext fun ax => Fin.ext (by
    match ax with
    | ⟨0, _⟩ => show win0_3.index t (0 : Fin 2) * 1 + 1 * 0 = 0; rw [e0]
    | ⟨1, _⟩ => show win0_3.index t (1 : Fin 2) * 4096 + 1 * j.val = j.val; rw [e1]; omega)
  rw [he]
  exact Cert.SetConv.Prefix.v14_apply m c j

/-- and the fourth resident block is the whole of E. -/
theorem iblk4_apply (c : Dev nD) (t : Fin cfg0.N) (j : Fin 4096) (cc : Fin 3) :
    iblk m c 4 t (ix2 j cc) = (V m c main_v17 : Cert.SetConv.SOnesY.Idx → EReal) (ix2 j cc) := by
  obtain ⟨-, -, -, -, -, -, -, -, e0, e1, -⟩ := idx_facts t
  show V m c main_v17 (((cfg0.win 4).blk t).view.emb (ix2 j cc)) = _
  refine congrArg _ (funext fun ax => Fin.ext ?_)
  match ax with
  | ⟨0, _⟩ => show win0_4.index t (0 : Fin 2) * 4096 + 1 * j.val = j.val; rw [e0]; omega
  | ⟨1, _⟩ => show win0_4.index t (1 : Fin 2) * 3 + 1 * cc.val = cc.val; rw [e1]; omega

/-- The normalised feature map of the launch contents, with E the fourth resident array as the region finds it. -/
abbrev result (c : Dev nD) : Buf (Elt Ideal) ((c : Thread nD τ).loc main_v18) :=
  Cert.SetConv.featureMap (Cert.SetConv.gram (m ((c : Thread nD τ).loc main_arg0)) (m ((c : Thread nD τ).loc main_arg2))) (V m c main_v17)

/-- What point t writes back is rows 1024 t … of the feature map. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold outsAt0
  rw [out_eq]
  obtain ⟨-, -, -, -, -, -, -, -, -, -, e50, e51⟩ := idx_facts t
  show blockOut (iblk m c 0 t) (iblk m c 1 t) (iblk m c 2 t) (iblk m c 3 t) (iblk m c 4 t) = fun y => result m c (((cfg0.win 5).blk t).view.emb y)
  exact rows_block_ext (blockOut (iblk m c 0 t) (iblk m c 1 t) (iblk m c 2 t) (iblk m c 3 t) (iblk m c 4 t)) (result m c) t.val (point_lt t) (fun y => ((cfg0.win 5).blk t).view.emb y)
    (fun y => by show win0_5.index t (0 : Fin 2) * 1024 + 1 * (y 0).val = _; rw [e50])
    (fun y => by show win0_5.index t (1 : Fin 2) * 3 + 1 * (y 1).val = _; rw [e51])
    (fun r cc => blockOut_featureMap (m ((c : Thread nD τ).loc main_arg0)) (m ((c : Thread nD τ).loc main_arg2)) (V m c main_v17) (iblk m c 0 t) (iblk m c 1 t) (iblk m c 2 t) (iblk m c 3 t) (iblk m c 4 t) t.val (point_lt t)
      (iblk0_apply m c t) (iblk1_apply m c t) (iblk2_apply m c t) (iblk3_apply m c t) (iblk4_apply m c t) r cc)

/-- The output array after the launch is the feature map: the 64 row blocks cover it. -/
theorem final_eq (c : Dev nD) : (dats m 0 c).arrAt 5 cfg0.N = result m c :=
  (dats m 0 c).arrAt_eq_of_cover 5 (result m c) (fun t _ => flushed_eq m c t) Cert.SetConv.Cover.cover5

/-- The kernel's run, read: every weakly fair execution terminates with the result at the layout of the feature map and
    the three arguments unchanged. The three host operations after the launch are the layout of the output array. -/
theorem run : θ_run defs (onTc (τ := τ) (main (F := Ideal))) ⟨m, fun _ => 0, ρ⟩ fun r => ∀ c : Dev nD,
      r.2.mem ((c : Thread nD τ).loc main_v21)
        = Cert.SetConv.layout shapeCasts_S65536x3_S256x256x3 transposes_S256x256x3_S3x256x256_2_1_0
            bcast_S3x256x256_S1x3x256x256_1_2_3 (result m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(((h c).2 main_v21 (Pipeline.mem_restRefs_of main_v21 (by decide) (by decide))).trans
        (Cert.SetConv.Tail.tail_eq m (dats m) c)).trans
        (congrArg (Cert.SetConv.layout shapeCasts_S65536x3_S256x256x3 transposes_S256x256x3_S3x256x256_2_1_0
          bcast_S3x256x256_S1x3x256x256_1_2_3) (final_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.SetConv.Kernel

end
-- ==== Proof.lean ====
/-
  The set-convolution kernel against its reference: the five claims.

  Both programs compute, for 65536 grid points g and 4096 context points x with signals y, the radial-basis weights
  k(g, x) = exp (−½‖g − x‖²), the features φ = k · [1 | y], the density φ₀ and the two channels φ₁/φ₀, φ₂/φ₀, laid out
  as 1 × 3 × 256 × 256. The kernel expands the exponent as (g·x) + (−½‖g‖² + −½‖x‖²) and accumulates φ over four slabs
  of 1024 context points per block of 1024 grid points; the reference forms ‖g‖² + ‖x‖² − (2g)·x, halves it with a
  minus sign, and contracts over all 4096 context points at once.

  The two exponents agree for real g and x (distributivity of −½ over the sum and the difference fails at the
  infinities of the extended reals): this is where the precondition, every input finite, is used — for the context
  points and the grid only. Regrouping the sum over the context points into four slabs needs no finiteness. The two
  programs' matrices [1 | y] are the same term, and both end with the same layout, which is never opened.
-/
import proofs.«149900_j65755949301956_2_alg».proof.Defs
import proofs.«149900_j65755949301956_2_alg».proof.Proof.Gen.Kernel
import proofs.«149900_j65755949301956_2_alg».proof.Proof.Gen.Kernel.Skeleton
import proofs.«149900_j65755949301956_2_alg».proof.Proof.Gen.Kernel.Launch
import proofs.«149900_j65755949301956_2_alg».proof.Proof.Gen.Kernel.Points
import proofs.«149900_j65755949301956_2_alg».proof.Proof.Gen.Kernel.Frame
import proofs.«149900_j65755949301956_2_alg».proof.Proof.Gen.KernelIdeal
import proofs.«149900_j65755949301956_2_alg».proof.Proof.Gen.KernelIdeal.Skeleton
import proofs.«149900_j65755949301956_2_alg».proof.Proof.Gen.KernelIdeal.Launch
import proofs.«149900_j65755949301956_2_alg».proof.Proof.Gen.KernelIdeal.Points
import proofs.«149900_j65755949301956_2_alg».proof.Proof.Gen.KernelIdeal.Frame
import proofs.«149900_j65755949301956_2_alg».proof.Proof.Gen.ReferenceIdeal
import proofs.«149900_j65755949301956_2_alg».proof.Proof.Gen.ReferenceIdeal.Run
import proofs.«149900_j65755949301956_2_alg».proof.Proof.Gen.ReferenceIdeal.Read
import proofs.«149900_j65755949301956_2_alg».proof.Proof.Gen.Pre_finite_inputs
import proofs.«149900_j65755949301956_2_alg».proof.Proof.Spec
import proofs.«149900_j65755949301956_2_alg».proof.Proof.Finite
import proofs.«149900_j65755949301956_2_alg».proof.Proof.RefValue
import proofs.«149900_j65755949301956_2_alg».proof.Proof.KernelPrefix
import proofs.«149900_j65755949301956_2_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories agreeing on the three arguments, both programs end at the layout of the
    normalised feature map of those arguments. -/
theorem algebraic : Cert.algebraic_KernelIdeal_ReferenceIdeal := by
  intro m ρ m' ρ' hpre hagree
  refine ⟨fun c => Cert.SetConv.layout Cert.KernelIdeal.Gen.shapeCasts_S65536x3_S256x256x3
      Cert.KernelIdeal.Gen.transposes_S256x256x3_S3x256x256_2_1_0 Cert.KernelIdeal.Gen.bcast_S3x256x256_S1x3x256x256_1_2_3
      (Cert.SetConv.Kernel.result m c), Cert.SetConv.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hg⟩ := Cert.SetConv.Finite.real_of_pre _ _ _ (hpre c)
  rw [Cert.ReferenceIdeal.Read.val_main_v29_eq, (hagree c).1, (hagree c).2.1, (hagree c).2.2,
    Cert.SetConv.Ref.ref_layout Cert.KernelIdeal.Gen.shapeCasts_S65536x3_S256x256x3
      Cert.KernelIdeal.Gen.transposes_S256x256x3_S3x256x256_2_1_0 Cert.KernelIdeal.Gen.bcast_S3x256x256_S1x3x256x256_1_2_3,
    Cert.SetConv.Ref.ref_featureMap _ _ _ hX hg, ← Cert.SetConv.Prefix.v17_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
